-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S16x4096x3 : Shape := ⟨3, ![16, 4096, 3]⟩
abbrev S4x512x256 : Shape := ⟨3, ![4, 512, 256]⟩
abbrev S4x512 : Shape := ⟨2, ![4, 512]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x4096x3 : S_.BroadcastsInDim S16x4096x3 (![] : Fin 0 → Fin S16x4096x3.rank)
  reducesTo_S16x4096x3_S_d0_1_2 : S16x4096x3.ReducesTo [0, 1, 2] S_
  bcast_S_S4x512x256 : S_.BroadcastsInDim S4x512x256 (![] : Fin 0 → Fin S4x512x256.rank)
  reducesTo_S4x512x256_S_d0_1_2 : S4x512x256.ReducesTo [0, 1, 2] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  main_v18

def fn {F : FTy → Type} [FloatOps F] (main_arg0 : FVec F S16x4096x256 .f32) (main_arg1 : FVec F S16x4096x3 .f32) (main_arg2 : FVec F S4x512x256 .f32) (main_arg3 : FVec F S4x512 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  let main_v9 : FVec F S4x512x256 .f32 := Host.absf main_arg2
  let main_cst_2 : FVec F S_ .f32 := constant S_ .f32 0x7F800000#32
  let main_v10 : FVec F S4x512x256 .f32 := broadcastInDim S4x512x256 ![] bcast_S_S4x512x256 main_cst_2
  let main_v11 : IVec S4x512x256 1 := cmpf .olt main_v9 main_v10
  let main_c_3 : IVec S_ 1 := constantI S_ 1 1#1
  let main_v12 : IVec S_ 1 := (fun x v => Host.reduce IntOp.andi x v reducesTo_S4x512x256_S_d0_1_2 h_S_) main_v11 main_c_3
  let main_v13 : IVec S_ 1 := andi main_v8 main_v12
  let main_v14 : FVec F S4x512 .f32 := Host.absf main_arg3
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_v13 main_v16
-- ==== Kernel.lean ====
abbrev S16x4096x256 : Shape := ⟨3, ![16, 4096, 256]⟩
abbrev S16x4096x3 : Shape := ⟨3, ![16, 4096, 3]⟩
abbrev S4x512x256 : Shape := ⟨3, ![4, 512, 256]⟩
abbrev S4x512 : Shape := ⟨2, ![4, 512]⟩
abbrev S65536x256 : Shape := ⟨2, ![65536, 256]⟩
abbrev S65536x3 : Shape := ⟨2, ![65536, 3]⟩
abbrev S4x256x512 : Shape := ⟨3, ![4, 256, 512]⟩
abbrev S1024x512 : Shape := ⟨2, ![1024, 512]⟩
abbrev S65536x512 : Shape := ⟨2, ![65536, 512]⟩
abbrev S2048x256 : Shape := ⟨2, ![2048, 256]⟩
abbrev S2048x3 : Shape := ⟨2, ![2048, 3]⟩
abbrev S2048x512 : Shape := ⟨2, ![2048, 512]⟩
abbrev S2048x1024 : Shape := ⟨2, ![2048, 1024]⟩
abbrev S2048 : Shape := ⟨1, ![2048]⟩
abbrev S2048x1 : Shape := ⟨2, ![2048, 1]⟩
abbrev S1x512 : Shape := ⟨2, ![1, 512]⟩
abbrev S512 : Shape := ⟨1, ![512]⟩
abbrev S16x4096x512 : Shape := ⟨3, ![16, 4096, 512]⟩

abbrev nBuf : Space → Nat
  | .hbm => 11
  | .vmem => 9
  | .smem => 0
  | _ => 0

abbrev bufTy : (tb : Table) → Fin (tcTables nBuf tb) → BufTy
  | .hbm, ⟨0, _⟩ => ⟨S16x4096x256, .f32⟩
  | .hbm, ⟨1, _⟩ => ⟨S16x4096x3, .f32⟩
  | .hbm, ⟨2, _⟩ => ⟨S4x512x256, .f32⟩
  | .hbm, ⟨3, _⟩ => ⟨S4x512, .f32⟩
  | .hbm, ⟨4, _⟩ => ⟨S65536x256, .f32⟩
  | .hbm, ⟨5, _⟩ => ⟨S65536x3, .f32⟩
  | .hbm, ⟨6, _⟩ => ⟨S4x256x512, .f32⟩
  | .hbm, ⟨7, _⟩ => ⟨S4x256x512, .bf16⟩
  | .hbm, ⟨8, _⟩ => ⟨S1024x512, .bf16⟩
  | .hbm, ⟨9, _⟩ => ⟨S65536x512, .f32⟩
  | .hbm, ⟨10, _⟩ => ⟨S16x4096x512, .f32⟩
  | .local _ .vmem, ⟨0, _⟩ => ⟨S2048x256, .f32⟩
  | .local _ .vmem, ⟨1, _⟩ => ⟨S2048x256, .f32⟩
  | .local _ .vmem, ⟨2, _⟩ => ⟨S2048x3, .f32⟩
  | .local _ .vmem, ⟨3, _⟩ => ⟨S2048x3, .f32⟩
  | .local _ .vmem, ⟨4, _⟩ => ⟨S1024x512, .bf16⟩
  | .local _ .vmem, ⟨5, _⟩ => ⟨S4x512, .f32⟩
  | .local _ .vmem, ⟨6, _⟩ => ⟨S2048x512, .f32⟩
  | .local _ .vmem, ⟨7, _⟩ => ⟨S2048x512, .f32⟩
  | .local _ .vmem, ⟨8, _⟩ => ⟨S2048x1024, .bf16⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x256_S65536x256 : S16x4096x256.ShapeCasts S65536x256
  shapeCasts_S16x4096x3_S65536x3 : S16x4096x3.ShapeCasts S65536x3
  transposes_S4x512x256_S4x256x512_0_2_1 : S4x512x256.Transposes [0, 2, 1] S4x256x512
  bitsLt_bf16_f32 : FTy.bits .bf16 < FTy.bits .f32
  shapeCasts_S4x256x512_S1024x512 : S4x256x512.ShapeCasts S1024x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  reduces_S2048x3_S2048 : S2048x3.Reduces [1] S2048
  shapeCasts_S2048_S2048x1 : S2048.ShapeCasts S2048x1
  natLt_1_32 : 1 < 32
  broadcasts_S2048x1_S2048x256 : S2048x1.Broadcasts S2048x256
  inb_S2048x1024_S2048x256_0_0 : ∀ a, (![0, 0] : Fin 2 → Nat) a + S2048x256.size a ≤ S2048x1024.size a
  packedbf16_S2048x1024_S2048x256_0_0 : (Rect.unit (s := S2048x1024) ![0, 0] S2048x256.size inb_S2048x1024_S2048x256_0_0).PackedRows (EltTy.packing .bf16)
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S2048x1_S2048x512 : S2048x1.Broadcasts S2048x512
  broadcasts_S1x512_S2048x512 : S1x512.Broadcasts S2048x512
  inb_S2048x1024_S2048x256_0_256 : ∀ a, (![0, 256] : Fin 2 → Nat) a + S2048x256.size a ≤ S2048x1024.size a
  packedbf16_S2048x1024_S2048x256_0_256 : (Rect.unit (s := S2048x1024) ![0, 256] S2048x256.size inb_S2048x1024_S2048x256_0_256).PackedRows (EltTy.packing .bf16)
  inb_S4x512_S1x512_1_0 : ∀ a, (![1, 0] : Fin 2 → Nat) a + S1x512.size a ≤ S4x512.size a
  inb_S2048x1024_S2048x256_0_512 : ∀ a, (![0, 512] : Fin 2 → Nat) a + S2048x256.size a ≤ S2048x1024.size a
  packedbf16_S2048x1024_S2048x256_0_512 : (Rect.unit (s := S2048x1024) ![0, 512] S2048x256.size inb_S2048x1024_S2048x256_0_512).PackedRows (EltTy.packing .bf16)
  inb_S4x512_S1x512_2_0 : ∀ a, (![2, 0] : Fin 2 → Nat) a + S1x512.size a ≤ S4x512.size a
  inb_S2048x1024_S2048x256_0_768 : ∀ a, (![0, 768] : Fin 2 → Nat) a + S2048x256.size a ≤ S2048x1024.size a
  packedbf16_S2048x1024_S2048x256_0_768 : (Rect.unit (s := S2048x1024) ![0, 768] S2048x256.size inb_S2048x1024_S2048x256_0_768).PackedRows (EltTy.packing .bf16)
  inb_S4x512_S1x512_3_0 : ∀ a, (![3, 0] : Fin 2 → Nat) a + S1x512.size a ≤ S4x512.size a
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S65536x512_S16x4096x512 : S65536x512.ShapeCasts S16x4096x512
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S65536x3.size a
  hwx0_1 : ∀ i : grid0.Coords, EltTy.bits .f32 = 32 ∨ (Rect.block (s := S65536x3) S2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .f32 = 32 ∨ (Rect.block (s := S4x512) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S65536x512.size a
  hwx0_4 : ∀ i : grid0.Coords, EltTy.bits .f32 = 32 ∨ (Rect.block (s := S65536x512) S2048x512.size (cc0_transform_4 i) (hinb0_4 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S16x4096x3 : Shape := ⟨3, ![16, 4096, 3]⟩
abbrev S4x512x256 : Shape := ⟨3, ![4, 512, 256]⟩
abbrev S4x512 : Shape := ⟨2, ![4, 512]⟩
abbrev S4 : Shape := ⟨1, ![4]⟩
abbrev S65536x256 : Shape := ⟨2, ![65536, 256]⟩
abbrev S65536x3 : Shape := ⟨2, ![65536, 3]⟩
abbrev S_ : Shape := ⟨0, ![]⟩
abbrev S65536 : Shape := ⟨1, ![65536]⟩
abbrev S65536x1 : Shape := ⟨2, ![65536, 1]⟩
abbrev S1x4 : Shape := ⟨2, ![1, 4]⟩
abbrev S65536x4 : Shape := ⟨2, ![65536, 4]⟩
abbrev S4x512x65536 : Shape := ⟨3, ![4, 512, 65536]⟩
abbrev S4x65536x512 : Shape := ⟨3, ![4, 65536, 512]⟩
abbrev S4x1x512 : Shape := ⟨3, ![4, 1, 512]⟩
abbrev S1x65536x1 : Shape := ⟨3, ![1, 65536, 1]⟩
abbrev S1 : Shape := ⟨1, ![1]⟩
abbrev S1x1x1 : Shape := ⟨3, ![1, 1, 1]⟩
abbrev S1x65536 : Shape := ⟨2, ![1, 65536]⟩
abbrev S1x65536x512 : Shape := ⟨3, ![1, 65536, 512]⟩
abbrev S65536x512 : Shape := ⟨2, ![65536, 512]⟩
abbrev S16x4096x512 : Shape := ⟨3, ![16, 4096, 512]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x3, .f32⟩
  | .hbm, ⟨2, _⟩ => ⟨S4x512x256, .f32⟩
  | .hbm, ⟨3, _⟩ => ⟨S4x512, .f32⟩
  | .hbm, ⟨4, _⟩ => ⟨S4, .f32⟩
  | .hbm, ⟨5, _⟩ => ⟨S65536x256, .f32⟩
  | .hbm, ⟨6, _⟩ => ⟨S65536x3, .f32⟩
  | .hbm, ⟨7, _⟩ => ⟨S65536x3, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S65536x1, .f32⟩
  | .hbm, ⟨12, _⟩ => ⟨S1x4, .f32⟩
  | .hbm, ⟨13, _⟩ => ⟨S65536x4, .f32⟩
  | .hbm, ⟨14, _⟩ => ⟨S65536x4, .f32⟩
  | .hbm, ⟨15, _⟩ => ⟨S65536x4, .i1⟩
  | .hbm, ⟨16, _⟩ => ⟨S65536x4, .i32⟩
  | .hbm, ⟨17, _⟩ => ⟨S_, .i1⟩
  | .hbm, ⟨18, _⟩ => ⟨S_, .i32⟩
  | .hbm, ⟨19, _⟩ => ⟨S65536, .i1⟩
  | .hbm, ⟨20, _⟩ => ⟨S65536, .i32⟩
  | .hbm, ⟨21, _⟩ => ⟨S4x512x65536, .f32⟩
  | .hbm, ⟨22, _⟩ => ⟨S4x65536x512, .f32⟩
  | .hbm, ⟨23, _⟩ => ⟨S4x1x512, .f32⟩
  | .hbm, ⟨24, _⟩ => ⟨S4x65536x512, .f32⟩
  | .hbm, ⟨25, _⟩ => ⟨S4x65536x512, .f32⟩
  | .hbm, ⟨26, _⟩ => ⟨S1x65536x1, .i32⟩
  | .hbm, ⟨27, _⟩ => ⟨S_, .i32⟩
  | .hbm, ⟨28, _⟩ => ⟨S1x65536x1, .i32⟩
  | .hbm, ⟨29, _⟩ => ⟨S1x65536x1, .i1⟩
  | .hbm, ⟨30, _⟩ => ⟨S_, .i32⟩
  | .hbm, ⟨31, _⟩ => ⟨S1x65536x1, .i32⟩
  | .hbm, ⟨32, _⟩ => ⟨S1x65536x1, .i32⟩
  | .hbm, ⟨33, _⟩ => ⟨S1x65536x1, .i32⟩
  | .hbm, ⟨34, _⟩ => ⟨S1, .i32⟩
  | .hbm, ⟨35, _⟩ => ⟨S_, .i32⟩
  | .hbm, ⟨36, _⟩ => ⟨S1x65536x1, .i32⟩
  | .hbm, ⟨37, _⟩ => ⟨S1x65536x1, .i1⟩
  | .hbm, ⟨38, _⟩ => ⟨S1x1x1, .i32⟩
  | .hbm, ⟨39, _⟩ => ⟨S1x65536x1, .i32⟩
  | .hbm, ⟨40, _⟩ => ⟨S1x65536x1, .i1⟩
  | .hbm, ⟨41, _⟩ => ⟨S1x65536x1, .i1⟩
  | .hbm, ⟨42, _⟩ => ⟨S_, .i1⟩
  | .hbm, ⟨43, _⟩ => ⟨S1x65536, .i1⟩
  | .hbm, ⟨44, _⟩ => ⟨S1x65536x512, .f32⟩
  | .hbm, ⟨45, _⟩ => ⟨S1x65536x512, .i1⟩
  | .hbm, ⟨46, _⟩ => ⟨S_, .f32⟩
  | .hbm, ⟨47, _⟩ => ⟨S1x65536x512, .f32⟩
  | .hbm, ⟨48, _⟩ => ⟨S1x65536x512, .f32⟩
  | .hbm, ⟨49, _⟩ => ⟨S65536x512, .f32⟩
  | .hbm, ⟨50, _⟩ => ⟨S16x4096x512, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_c : Ref sig .tc := ⟨.hbm, 17, rfl⟩
abbrev main_call1_c_0 : Ref sig .tc := ⟨.hbm, 18, rfl⟩
abbrev main_call1_v1_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_c_1 : Ref sig .tc := ⟨.hbm, 34, rfl⟩
abbrev main_call2_c_2 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩

abbrev nD : Nat := 1
abbrev τ : Topo := Topo.v7x

variable {F : FTy → Type} [FloatOps F]

class Facts₀ : Prop where
  shapeCasts_S16x4096x256_S65536x256 : S16x4096x256.ShapeCasts S65536x256
  shapeCasts_S16x4096x3_S65536x3 : S16x4096x3.ShapeCasts S65536x3
  reducesTo_S65536x3_S65536_d1 : S65536x3.ReducesTo [1] S65536
  h_S_ : 0 < S_.numel
  bcast_S65536_S65536x1_0 : S65536.BroadcastsInDim S65536x1 (![0] : Fin 1 → Fin S65536x1.rank)
  bcast_S4_S1x4_1 : S4.BroadcastsInDim S1x4 (![1] : Fin 1 → Fin S1x4.rank)
  bcast_S65536x1_S65536x4_0_1 : S65536x1.BroadcastsInDim S65536x4 (![0, 1] : Fin 2 → Fin S65536x4.rank)
  bcast_S1x4_S65536x4_0_1 : S1x4.BroadcastsInDim S65536x4 (![0, 1] : Fin 2 → Fin S65536x4.rank)
  reducesTo_S65536x4_S65536_d1 : S65536x4.ReducesTo [1] S65536
  transposes_S4x512x65536_S4x65536x512_0_2_1 : S4x512x65536.Transposes [0, 2, 1] S4x65536x512
  bcast_S4x512_S4x1x512_0_2 : S4x512.BroadcastsInDim S4x1x512 (![0, 2] : Fin 2 → Fin S4x1x512.rank)
  bcast_S4x1x512_S4x65536x512_0_1_2 : S4x1x512.BroadcastsInDim S4x65536x512 (![0, 1, 2] : Fin 3 → Fin S4x65536x512.rank)
  bcast_S65536_S1x65536x1_1 : S65536.BroadcastsInDim S1x65536x1 (![1] : Fin 1 → Fin S1x65536x1.rank)
  bcast_S_S1x65536x1 : S_.BroadcastsInDim S1x65536x1 (![] : Fin 0 → Fin S1x65536x1.rank)
  bcast_S1_S1x1x1_2 : S1.BroadcastsInDim S1x1x1 (![2] : Fin 1 → Fin S1x1x1.rank)
  bcast_S1x1x1_S1x65536x1_0_1_2 : S1x1x1.BroadcastsInDim S1x65536x1 (![0, 1, 2] : Fin 3 → Fin S1x65536x1.rank)
  reducesTo_S1x65536x1_S1x65536_d2 : S1x65536x1.ReducesTo [2] S1x65536
  bcast_S1x65536_S1x65536x512_0_1 : S1x65536.BroadcastsInDim S1x65536x512 (![0, 1] : Fin 2 → Fin S1x65536x512.rank)
  bcast_S_S1x65536x512 : S_.BroadcastsInDim S1x65536x512 (![] : Fin 0 → Fin S1x65536x512.rank)
  shapeCasts_S1x65536x512_S65536x512 : S1x65536x512.ShapeCasts S65536x512
  shapeCasts_S65536x512_S16x4096x512 : S65536x512.ShapeCasts S16x4096x512
  dot_S4x512x256_S65536x256_S4x512x65536_2_1_01_0_n_n_wf : DotDims.WF S4x512x256 S65536x256 S4x512x65536 [2] [1] [0, 1] [0] [] []
  gather_S4x65536x512_S1x65536x1_S1x65536x512_2_0_1_1_0_2_11512_wf : GatherDims.WF S4x65536x512 S1x65536x1 S1x65536x512 [2] [0] [1] [0] [1] 2 ![1, 1, 512]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S4x512x256_S65536x256_S4x512x65536_2_1_01_0_n_n : DotDims S4x512x256 S65536x256 S4x512x65536 where
  lhsContracting := [2]
  rhsContracting := [1]
  lhsNonContracting := [0, 1]
  rhsNonContracting := [0]
  lhsBatch := []
  rhsBatch := []
  wf := dot_S4x512x256_S65536x256_S4x512x65536_2_1_01_0_n_n_wf
def gather_S4x65536x512_S1x65536x1_S1x65536x512_2_0_1_1_0_2_11512 : GatherDims S4x65536x512 S1x65536x1 S1x65536x512 where
  offsetDims := [2]
  collapsedSliceDims := [0]
  operandBatchingDims := [1]
  startIndicesBatchingDims := [1]
  startIndexMap := [0]
  indexVectorDim := 2
  sliceSizes := ![1, 1, 512]
  wf := gather_S4x65536x512_S1x65536x1_S1x65536x512_2_0_1_1_0_2_11512_wf

class Facts : Prop extends Facts₀ where

variable [Facts]
-- ==== Proof.Spec.lean ====
/-
  The function both programs compute, stated once over the extended reals.

  A point of the input cloud has three coordinates; its squared radius is the sum of their squares.  The point is
  routed to one of four filters by that squared radius: the first of the bounds 1, 9/4, 4, 10000 (the squares of
  the radii 1, 3/2, 2, 100) that lies strictly above it, and filter 0 when none does.  The result at a point and an
  output channel is the dot product of the point's feature row with the routed filter's weight row for that
  channel, plus the routed filter's bias for that channel.

  Also here: the values of the float words the two programs spell (each word is a dyadic rational, read exactly).
-/
import Idealize.ShloMosaic.PureOps.Ideal
import Idealize.ShloMosaic.Lib.ValueIdx

noncomputable section

open scoped BigOperators

namespace Cert.Moe

open Idealize.ShloMosaic Idealize.ShloMosaic.ValueIdx

/-- The filter a squared radius selects: the first bound strictly above it, filter 0 if there is none. -/
def bucket (s : EReal) : Fin 4 :=
  if s < ((1 : ℝ) : EReal) then 0
  else if s < ((9 / 4 : ℝ) : EReal) then 1
  else if s < ((4 : ℝ) : EReal) then 2
  else if s < ((10000 : ℝ) : EReal) then 3
  else 0

/-- A point's squared radius: the sum of the squares of its three coordinates. -/
def sqRadius (xyz : (⟨3, ![16, 4096, 3]⟩ : Shape).Idx → EReal) (b : Fin 16) (n : Fin 4096) : EReal :=
  ∑ k : Fin 3, xyz (ix3 b n k) * xyz (ix3 b n k)

/-- The result at batch `b`, point `n`, channel `o`: the routed filter's affine map of the point's features. -/
def Gat (feat : (⟨3, ![16, 4096, 256]⟩ : Shape).Idx → EReal) (xyz : (⟨3, ![16, 4096, 3]⟩ : Shape).Idx → EReal)
    (W : (⟨3, ![4, 512, 256]⟩ : Shape).Idx → EReal) (bias : (⟨2, ![4, 512]⟩ : Shape).Idx → EReal)
    (b : Fin 16) (n : Fin 4096) (o : Fin 512) : EReal :=
  (∑ c : Fin 256, feat (ix3 b n c) * W (ix3 (bucket (sqRadius xyz b n)) o c)) + bias (ix2 (bucket (sqRadius xyz b n)) o)

/-- The whole result array. -/
def G (feat : (⟨3, ![16, 4096, 256]⟩ : Shape).Idx → EReal) (xyz : (⟨3, ![16, 4096, 3]⟩ : Shape).Idx → EReal)
    (W : (⟨3, ![4, 512, 256]⟩ : Shape).Idx → EReal) (bias : (⟨2, ![4, 512]⟩ : Shape).Idx → EReal) :
    (⟨3, ![16, 4096, 512]⟩ : Shape).Idx → EReal :=
  fun j => Gat feat xyz W bias (j 0) (j 1) (j 2)

theorem G_apply (feat : (⟨3, ![16, 4096, 256]⟩ : Shape).Idx → EReal) (xyz : (⟨3, ![16, 4096, 3]⟩ : Shape).Idx → EReal)
    (W : (⟨3, ![4, 512, 256]⟩ : Shape).Idx → EReal) (bias : (⟨2, ![4, 512]⟩ : Shape).Idx → EReal)
    (b : Fin 16) (n : Fin 4096) (o : Fin 512) : G feat xyz W bias (ix3 b n o) = Gat feat xyz W bias b n o := rfl

/-! ## The float words the programs spell -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_nine_quarters : Ideal.ofBits .f32 0x40100000#32 = ((9 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_ten_thousand : Ideal.ofBits .f32 0x461C4000#32 = ((10000 : ℝ) : EReal) := by
  simp [Ideal.ofBits, Ideal.ieee, -EReal.coe_mul]; norm_num

theorem ofBits_three_halves : Ideal.ofBits .f32 0x3FC00000#32 = ((3 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_hundred : Ideal.ofBits .f32 0x42C80000#32 = ((100 : ℝ) : EReal) := by
  simp [Ideal.ofBits, Ideal.ieee, -EReal.coe_mul]; norm_num

end Cert.Moe

end
-- ==== Proof.RefTerm.lean ====
/-
  The reference's result as a pure function of its four argument arrays, cut into named stages.

  `pointNorm`: each point's radius, the square root of the sum of its squared coordinates (the sum starts from zero).
  `belowRadius`: for each point and each of the four radii 1, 3/2, 2, 100, whether the point's radius is strictly
  below that radius.  `firstTrue`: per point, the arg-max of those four bits, the smaller index winning a tie — the
  first radius above the point's, and 0 when there is none.  `routeIdx`: the three composed, from the coordinates.
  `dense`: for every filter, point and channel, the filter's weight row for the channel dotted with the point's
  features, plus the filter's bias for the channel.  `takeAlong`: the selection along the filter axis at a given
  index per point (a negative index wrapped by four; an index outside 0..3 answers a fixed filler value).
  `refOut`: the selection of `dense` at `routeIdx`, re-laid as [16, 4096, 512].
-/
import proofs.«166644_j472446403136_2_alg».proof.ReferenceIdeal
import proofs.«166644_j472446403136_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The four radii, as the reference's constant table. -/
def radii : FVec F S4 .f32 := fun i => FloatOps.ofBits .f32 (lit0 (S4.rowMajor i))

/-- Each point's radius. -/
def pointNorm (x : FVec F S65536x3 .f32) : FVec F S65536 .f32 :=
  Host.sqrt (Host.reduceAdd (mulf x x) (constant S_ .f32 0x00000000#32) reducesTo_S65536x3_S65536_d1 h_S_)

/-- Per point and radius: is the point's radius strictly below it. -/
def belowRadius (r : FVec F S65536 .f32) : IVec S65536x4 1 :=
  cmpf .olt
    (broadcastInDim S65536x4 ![0, 1] bcast_S65536x1_S65536x4_0_1 (broadcastInDim S65536x1 ![0] bcast_S65536_S65536x1_0 r))
    (broadcastInDim S65536x4 ![0, 1] bcast_S1x4_S65536x4_0_1 (broadcastInDim S1x4 ![1] bcast_S4_S1x4_1 (radii (F := F))))

/-- Per point: the index of the first set bit among its four, 0 when none is set. -/
def firstTrue (x : IVec S65536x4 1) : IVec S65536 32 :=
  fun j => (Host.reduce2 reducer_argmax_i1_i32 x (iotaInDim S65536x4 32 1) (constantI S_ 1 0#1) (constantI S_ 32 0#32)
    reducesTo_S65536x4_S65536_d1 h_S_ j).2

/-- Per point: the filter its coordinates route it to. -/
def routeIdx (xyz : FVec F S16x4096x3 .f32) : IVec S65536 32 :=
  firstTrue (belowRadius (pointNorm (shapeCast S65536x3 xyz shapeCasts_S16x4096x3_S65536x3)))

/-- Every filter's affine map of every point's features. -/
def dense (feat : FVec F S16x4096x256 .f32) (W : FVec F S4x512x256 .f32) (bias : FVec F S4x512 .f32) :
    FVec F S4x65536x512 .f32 :=
  addf
    (transpose S4x65536x512 [0, 2, 1]
      (Host.dotGeneral dot_S4x512x256_S65536x256_S4x512x65536_2_1_01_0_n_n none W
        (shapeCast S65536x256 feat shapeCasts_S16x4096x256_S65536x256))
      transposes_S4x512x65536_S4x65536x512_0_2_1)
    (broadcastInDim S4x65536x512 ![0, 1, 2] bcast_S4x1x512_S4x65536x512_0_1_2
      (broadcastInDim S4x1x512 ![0, 2] bcast_S4x512_S4x1x512_0_2 bias))

/-- A negative index wrapped by the axis length 4. -/
def wrapIdx (idx : IVec S1x65536x1 32) : IVec S1x65536x1 32 :=
  select (cmpi .slt idx (broadcastInDim S1x65536x1 ![] bcast_S_S1x65536x1 (constantI S_ 32 0#32)))
    (addi idx (broadcastInDim S1x65536x1 ![] bcast_S_S1x65536x1 (constantI S_ 32 4#32))) idx

/-- Per point: does the wrapped index lie in 0..3. -/
def inBounds (i4 : IVec S1x65536x1 32) : IVec S1x65536 1 :=
  Host.reduce IntOp.andi
    (andi (cmpi .sge i4 (broadcastInDim S1x65536x1 ![] bcast_S_S1x65536x1 (constantI S_ 32 0#32)))
      (cmpi .sle i4 (broadcastInDim S1x65536x1 ![0, 1, 2] bcast_S1x1x1_S1x65536x1_0_1_2
        (broadcastInDim S1x1x1 ![2] bcast_S1_S1x1x1_2 (constantI S1 32 3#32)))))
    (constantI S_ 1 1#1) reducesTo_S1x65536x1_S1x65536_d2 h_S_

/-- The selection along the filter axis. -/
def takeAlong (all : FVec F S4x65536x512 .f32) (idx : IVec S1x65536x1 32) : FVec F S1x65536x512 .f32 :=
  select (broadcastInDim S1x65536x512 ![0, 1] bcast_S1x65536_S1x65536x512_0_1 (inBounds (wrapIdx idx)))
    (Host.gather gather_S4x65536x512_S1x65536x1_S1x65536x512_2_0_1_1_0_2_11512 all (wrapIdx idx))
    (broadcastInDim S1x65536x512 ![] bcast_S_S1x65536x512 (constant S_ .f32 0x7FC00000#32))

/-- The reference's result. -/
def refOut (feat : FVec F S16x4096x256 .f32) (xyz : FVec F S16x4096x3 .f32) (W : FVec F S4x512x256 .f32)
    (bias : FVec F S4x512 .f32) : FVec F S16x4096x512 .f32 :=
  shapeCast S16x4096x512
    (shapeCast S65536x512
      (takeAlong (dense feat W bias) (broadcastInDim S1x65536x1 ![1] bcast_S65536_S1x65536x1_1 (routeIdx xyz)))
      shapeCasts_S1x65536x512_S65536x512)
    shapeCasts_S65536x512_S16x4096x512

end Cert.ReferenceIdeal.RefTerm

end
-- ==== Proof.RefRoute.lean ====
/-
  The routing index of the reference, read at one point, over the extended reals.

  The reference re-lays the coordinates [16, 4096, 3] as [65536, 3], takes each point's radius (the square root of
  the sum of its three squared coordinates, the sum starting from zero), compares it with the four radii
  1, 3/2, 2, 100, and takes the arg-max of the four bits, the smaller index winning a tie.  Here that index at point
  `b * 4096 + n` is shown to be the filter the point's squared radius selects (`Cert.Moe.bucket`):

  * a square of an extended real is non-negative, so a sum of squares is, and for a non-negative `s` and a positive
    real `r` the square root of `s` is below `r` exactly when `s` is below `r * r` — also at the upper infinity, where
    both sides fail;
  * the re-laid array at `(b * 4096 + n, k)` is the input at `(b, n, k)` (equal row-major positions), so the point's
    radius is the square root of its squared radius;
  * the two broadcasts under the comparison read the point's radius and the `f`-th radius, so bit `f` of a point says
    whether its radius is strictly below the `f`-th radius;
  * the arg-max's reducer (the greater bit, and on equal bits the smaller signed index) is commutative and
    associative, so the reduction over the axis of length four is the reducer applied to the four (bit, index)
    pairs in turn from (0, 0), which by cases on the four bits is the first set bit's index, and 0 when none is set.
-/
import proofs.«166644_j472446403136_2_alg».proof.Proof.Spec
import proofs.«166644_j472446403136_2_alg».proof.Proof.RefTerm
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRoute

open Idealize.ShloMosaic Idealize.ShloMosaic.ValueIdx Cert.ReferenceIdeal Cert.ReferenceIdeal.Gen

/-! ## Squares, sums of squares, and the square root against a radius -/

/-- Every extended real has a non-negative square (the two infinities square to the upper one). -/
theorem ereal_mul_self_nonneg (a : EReal) : 0 ≤ a * a := by
  induction a using EReal.rec with
  | bot => simp
  | top => simp
  | coe r => rw [← EReal.coe_mul]; exact EReal.coe_nonneg.mpr (mul_self_nonneg r)

/-- A point's squared radius is non-negative. -/
theorem sqRadius_nonneg (xyz : FVec Ideal S16x4096x3 .f32) (b : Fin 16) (n : Fin 4096) :
    0 ≤ Cert.Moe.sqRadius xyz b n :=
  Finset.sum_nonneg fun k _ => ereal_mul_self_nonneg _

/-- For a non-negative extended real `s` and a positive real `r`: the square root of `s` is below `r` exactly when
    `s` is below `r * r`. -/
theorem sqrt_lt_coe_iff {s : EReal} (hs : 0 ≤ s) {r : ℝ} (hr : 0 < r) :
    Ideal.sqrt s < (r : EReal) ↔ s < ((r * r : ℝ) : EReal) := by
  induction s using EReal.rec with
  | bot => exact absurd hs (by simp)
  | top => simp
  | coe x =>
    have hx : 0 ≤ x := EReal.coe_nonneg.mp hs
    rw [Ideal.sqrt_coe, if_neg (not_lt.mpr hx), EReal.coe_lt_coe_iff, EReal.coe_lt_coe_iff, Real.sqrt_lt' hr, sq]

/-! ## The arg-max of four bits -/

/-- The conjunction of the set bit with a truth value's bit is set exactly when the truth value holds. -/
theorem one_and_ofBool_eq_one (c : Bool) : (1#1 &&& BitVec.ofBool c = 1#1) ↔ c = true := by
  cases c <;> decide

/-- The reducer — the greater bit, and on equal bits the smaller signed index — is commutative. -/
theorem reducer_comm (a b : BitVec 1 × BitVec 32) : reducer_argmax_i1_i32 a b = reducer_argmax_i1_i32 b a := by
  obtain ⟨a1, a2⟩ := a
  obtain ⟨b1, b2⟩ := b
  rcases BitVec.eq_zero_or_eq_one a1 with rfl | rfl <;> rcases BitVec.eq_zero_or_eq_one b1 with rfl | rfl <;>
    simp [reducer_argmax_i1_i32, IntOp.cmpi, IntOp.ori, IntOp.andi, Scalar.select]
  all_goals
    simp only [one_and_ofBool_eq_one, BitVec.slt, decide_eq_true_eq]
    split_ifs <;> first | rfl | omega | (apply BitVec.eq_of_toInt_eq; omega)

/-- … and associative. -/
theorem reducer_assoc (a b c : BitVec 1 × BitVec 32) :
    reducer_argmax_i1_i32 (reducer_argmax_i1_i32 a b) c = reducer_argmax_i1_i32 a (reducer_argmax_i1_i32 b c) := by
  obtain ⟨a1, a2⟩ := a
  obtain ⟨b1, b2⟩ := b
  obtain ⟨c1, c2⟩ := c
  rcases BitVec.eq_zero_or_eq_one a1 with rfl | rfl <;> rcases BitVec.eq_zero_or_eq_one b1 with rfl | rfl <;>
    rcases BitVec.eq_zero_or_eq_one c1 with rfl | rfl <;>
    simp [reducer_argmax_i1_i32, IntOp.cmpi, IntOp.ori, IntOp.andi, Scalar.select]
  all_goals
    simp only [one_and_ofBool_eq_one, BitVec.slt, decide_eq_true_eq]
    split_ifs <;> first | rfl | omega | (apply BitVec.eq_of_toInt_eq; omega)

instance : Std.Commutative reducer_argmax_i1_i32 := ⟨reducer_comm⟩
instance : Std.Associative reducer_argmax_i1_i32 := ⟨reducer_assoc⟩

/-- A fold of a commutative and associative operation over the four coordinates of an axis, written out. -/
theorem fold_univ_four {α : Type} (op : α → α → α) [Std.Commutative op] [Std.Associative op] (b : α) (g : Fin 4 → α) :
    (Finset.univ : Finset (Fin 4)).fold op b g = op (op (op (op b (g 0)) (g 1)) (g 2)) (g 3) := by
  show Multiset.fold op b (Multiset.map g Finset.univ.val) = _
  rw [Fin.univ_val_map, Multiset.coe_fold_l]
  rfl

/-- The arg-max of four bits carrying the indices 0, 1, 2, 3, from the pair (0, 0): the first set bit's index, and 0
    when none is set. -/
theorem argmax_four (b0 b1 b2 b3 : BitVec 1) :
    (reducer_argmax_i1_i32 (reducer_argmax_i1_i32 (reducer_argmax_i1_i32 (reducer_argmax_i1_i32 (0#1, 0#32)
        (b0, 0#32)) (b1, 1#32)) (b2, 2#32)) (b3, 3#32)).2
      = if b0 = 1#1 then 0#32 else if b1 = 1#1 then 1#32 else if b2 = 1#1 then 2#32 else if b3 = 1#1 then 3#32 else 0#32 := by
  rcases BitVec.eq_zero_or_eq_one b0 with rfl | rfl <;> rcases BitVec.eq_zero_or_eq_one b1 with rfl | rfl <;>
    rcases BitVec.eq_zero_or_eq_one b2 with rfl | rfl <;> rcases BitVec.eq_zero_or_eq_one b3 with rfl | rfl <;> decide

/-! ## The re-laid coordinates and the radius of a point -/

/-- The index over result index `p` with coordinate `k` inserted on the second axis is `(p, k)`. -/
theorem lift_ix1 {m c : Nat} (h : (⟨2, ![m, c]⟩ : Shape).Reduces [1] ⟨1, ![m]⟩) (p : Fin m) (k : Fin c) :
    h.lift (ix1 p) k = ix2 p k :=
  (eq_ix2 _).trans (congrArg₂ ix2 (Fin.ext rfl) (Fin.ext rfl))

/-- The two reductions drop the second axis of a rank-two shape. -/
theorem reduces_S65536x3 : S65536x3.Reduces [1] S65536 := by decide
theorem reduces_S65536x4 : S65536x4.Reduces [1] S65536 := by decide

/-- The re-laid coordinate array at point `b * 4096 + n` and coordinate `k` is the input at `(b, n, k)`. -/
theorem relaid_apply (xyz : FVec Ideal S16x4096x3 .f32) (b : Fin 16) (n : Fin 4096) (k : Fin 3)
    (hp : b.val * 4096 + n.val < 65536) :
    shapeCast S65536x3 xyz shapeCasts_S16x4096x3_S65536x3 (ix2 (⟨b.val * 4096 + n.val, hp⟩ : Fin 65536) k)
      = xyz (ix3 b n k) :=
  shapeCast_apply xyz _ _ (ix3 b n k) (by
    rw [Shape.rowMajor_val_three, Shape.rowMajor_val_two]
    rfl)

/-- A point's radius is the square root of its squared radius. -/
theorem pointNorm_apply (xyz : FVec Ideal S16x4096x3 .f32) (b : Fin 16) (n : Fin 4096)
    (hp : b.val * 4096 + n.val < 65536) :
    RefTerm.pointNorm (F := Ideal) (shapeCast S65536x3 xyz shapeCasts_S16x4096x3_S65536x3)
        (ix1 (⟨b.val * 4096 + n.val, hp⟩ : Fin 65536))
      = Ideal.sqrt (Cert.Moe.sqRadius xyz b n) := by
  unfold RefTerm.pointNorm Host.sqrt Host.reduceAdd
  simp only [Ideal.hostUnary_sqrt_def, Ideal.hostReduceAdd_def, constant_apply]
  rw [Ideal.hostReduceAdd_single _ reduces_S65536x3, Cert.Moe.ofBits_zero, zero_add]
  refine congrArg Ideal.sqrt ?_
  show ∑ k : Fin 3, _ = ∑ k : Fin 3, _
  refine Finset.sum_congr rfl fun k _ => ?_
  rw [lift_ix1, mulf_apply, relaid_apply]

/-! ## The four bits of a point -/

/-- The radius table read at `f` is the table's `f`-th word. -/
theorem radii_apply (f : Fin 4) : RefTerm.radii (F := Ideal) (ix1 f) = Ideal.ofBits .f32 (lit0 f) := by
  show Ideal.ofBits .f32 (lit0 (S4.rowMajor (ix1 f))) = _
  exact congrArg (fun i => Ideal.ofBits .f32 (lit0 i)) (Fin.ext (Shape.rowMajor_val_one _))

/-- Bit `f` of point `p`: is the point's radius strictly below the `f`-th radius. -/
theorem belowRadius_apply (r : FVec Ideal S65536 .f32) (p : Fin 65536) (f : Fin 4) :
    RefTerm.belowRadius r (ix2 p f) = BitVec.ofBool (decide (r (ix1 p) < Ideal.ofBits .f32 (lit0 f))) := by
  have e1 : broadcastInDim S65536x4 ![0, 1] bcast_S65536x1_S65536x4_0_1
      (broadcastInDim S65536x1 ![0] bcast_S65536_S65536x1_0 r) (ix2 p f) = r (ix1 p) :=
    (broadcastInDim_apply _ _ _ (ix2 p f) (ix2 p (0 : Fin 1)) (fun a => by
      match a with
      | ⟨0, _⟩ => rfl
      | ⟨1, _⟩ => rfl)).trans
    (broadcastInDim_apply _ _ _ (ix2 p (0 : Fin 1)) (ix1 p) (fun a => by
      match a with
      | ⟨0, _⟩ => rfl))
  have e2 : broadcastInDim S65536x4 ![0, 1] bcast_S1x4_S65536x4_0_1
      (broadcastInDim S1x4 ![1] bcast_S4_S1x4_1 (RefTerm.radii (F := Ideal))) (ix2 p f)
        = RefTerm.radii (F := Ideal) (ix1 f) :=
    (broadcastInDim_apply _ _ _ (ix2 p f) (ix2 (0 : Fin 1) f) (fun a => by
      match a with
      | ⟨0, _⟩ => rfl
      | ⟨1, _⟩ => rfl)).trans
    (broadcastInDim_apply _ _ _ (ix2 (0 : Fin 1) f) (ix1 f) (fun a => by
      match a with
      | ⟨0, _⟩ => rfl))
  show Ideal.cmp .olt _ _ = _
  rw [e1, e2, radii_apply]
  rfl

/-- Per point, the arg-max reads only the point's four bits: the index of the first set one, 0 when none is set. -/
theorem firstTrue_apply (x : IVec S65536x4 1) (p : Fin 65536) :
    RefTerm.firstTrue x (ix1 p)
      = if x (ix2 p 0) = 1#1 then 0#32 else if x (ix2 p 1) = 1#1 then 1#32 else if x (ix2 p 2) = 1#1 then 2#32
        else if x (ix2 p 3) = 1#1 then 3#32 else 0#32 := by
  have e : Host.reduce2 reducer_argmax_i1_i32 x (iotaInDim S65536x4 32 1) (constantI S_ 1 0#1) (constantI S_ 32 0#32)
      reducesTo_S65536x4_S65536_d1 h_S_ (ix1 p)
      = Host.reduce reducer_argmax_i1_i32 (fun i => (x i, iotaInDim S65536x4 32 1 i))
          (fun k => (constantI S_ 1 0#1 k, constantI S_ 32 0#32 k)) reducesTo_S65536x4_S65536_d1 h_S_ (ix1 p) := rfl
  unfold RefTerm.firstTrue
  rw [e, Host.reduce_eq_fold_single _ _ _ _ reduces_S65536x4]
  refine (congrArg Prod.snd (fold_univ_four _ _ _)).trans ?_
  have hl : ∀ k : Fin 4, reduces_S65536x4.lift (ix1 p) k = ix2 p k := fun k => lift_ix1 _ p k
  show (reducer_argmax_i1_i32 (reducer_argmax_i1_i32 (reducer_argmax_i1_i32 (reducer_argmax_i1_i32 (0#1, 0#32)
      (x (reduces_S65536x4.lift (ix1 p) (0 : Fin 4)), 0#32)) (x (reduces_S65536x4.lift (ix1 p) (1 : Fin 4)), 1#32))
      (x (reduces_S65536x4.lift (ix1 p) (2 : Fin 4)), 2#32)) (x (reduces_S65536x4.lift (ix1 p) (3 : Fin 4)), 3#32)).2 = _
  rw [hl 0, hl 1, hl 2, hl 3]
  exact argmax_four _ _ _ _

/-! ## The routing index at a point -/

/-- The bit of a decided proposition is set exactly when the proposition holds. -/
theorem ofBool_decide_eq_one (P : Prop) [Decidable P] : BitVec.ofBool (decide P) = 1#1 ↔ P := by
  by_cases h : P <;> simp [h]

/-- The square-root comparison against a radius `r`, with the square `r * r` named `q`. -/
theorem sqrt_lt_iff_of_sq {s : EReal} (hs : 0 ≤ s) {r q : ℝ} (hr : 0 < r) (hq : r * r = q) :
    Ideal.sqrt s < (r : EReal) ↔ s < (q : EReal) := hq ▸ sqrt_lt_coe_iff hs hr

/-- The routing index of point `(b, n)` is the filter its squared radius selects. -/
theorem routeIdx_apply (xyz : FVec Ideal S16x4096x3 .f32) (b : Fin 16) (n : Fin 4096) :
    RefTerm.routeIdx (F := Ideal) xyz (ix1 (⟨b.val * 4096 + n.val, by omega⟩ : Fin 65536))
      = BitVec.ofNat 32 (Cert.Moe.bucket (Cert.Moe.sqRadius xyz b n)).val := by
  have hs := sqRadius_nonneg xyz b n
  have h0 : Ideal.ofBits .f32 (lit0 0) = ((1 : ℝ) : EReal) := Cert.Moe.ofBits_one
  have h1 : Ideal.ofBits .f32 (lit0 1) = ((3 / 2 : ℝ) : EReal) := Cert.Moe.ofBits_three_halves
  have h2 : Ideal.ofBits .f32 (lit0 2) = ((2 : ℝ) : EReal) := Cert.Moe.ofBits_two
  have h3 : Ideal.ofBits .f32 (lit0 3) = ((100 : ℝ) : EReal) := Cert.Moe.ofBits_hundred
  unfold RefTerm.routeIdx
  rw [firstTrue_apply]
  simp only [belowRadius_apply, pointNorm_apply, ofBool_decide_eq_one, h0, h1, h2, h3,
    sqrt_lt_iff_of_sq hs (r := 1) (q := 1) (by norm_num) (by norm_num),
    sqrt_lt_iff_of_sq hs (r := 3 / 2) (q := 9 / 4) (by norm_num) (by norm_num),
    sqrt_lt_iff_of_sq hs (r := 2) (q := 4) (by norm_num) (by norm_num),
    sqrt_lt_iff_of_sq hs (r := 100) (q := 10000) (by norm_num) (by norm_num)]
  unfold Cert.Moe.bucket
  split_ifs <;> rfl

end Cert.ReferenceIdeal.RefRoute

end
-- ==== Proof.RefDense.lean ====
/-
  The dense map and the selection, read at an index over the extended reals, and the reference's value assembled.

  `dense_apply`: for a filter, a point (batch b, position n, flat position b * 4096 + n) and a channel, the dense
  map is the dot product of the point's feature row with the filter's weight row for the channel, plus the filter's
  bias for the channel.  `takeAlong_apply`: where a point's index is one of 0..3, the selection along the filter
  axis reads that filter's slice.  `refOut_eq_G_of_route`: when every point's routing index is the bucket of its
  squared radius, the reference's result is the specification's array.
-/
import proofs.«166644_j472446403136_2_alg».proof.Proof.Spec
import proofs.«166644_j472446403136_2_alg».proof.Proof.RefTerm
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefDense

open Idealize.ShloMosaic Idealize.ShloMosaic.ValueIdx Cert.ReferenceIdeal Cert.ReferenceIdeal.Gen

/-! ## The dense map -/

/-- The product of the weights [4, 512, 256] with the flat features [65536, 256], contracting the last axis of each,
    read at (filter, channel, point): the sum over the 256 feature coordinates. -/
theorem dot_apply (W : FVec Ideal S4x512x256 .f32) (X : FVec Ideal S65536x256 .f32) (f : Fin 4) (o : Fin 512)
    (p : Fin 65536) :
    Host.dotGeneral dot_S4x512x256_S65536x256_S4x512x65536_2_1_01_0_n_n none W X (ix3 f o p)
      = ∑ c : Fin 256, W (ix3 f o c) * X (ix2 p c) := by
  show FloatOps.dotGeneral _ none _ W X (ix3 f o p) = _
  rw [Ideal.dotGeneral_apply,
    ← Equiv.sum_comp (contrEquiv1 dot_S4x512x256_S65536x256_S4x512x65536_2_1_01_0_n_n 256 rfl rfl).symm]
  refine Finset.sum_congr rfl fun c _ => ?_
  have c3 := contrEquiv1_symm_val dot_S4x512x256_S65536x256_S4x512x65536_2_1_01_0_n_n 256 rfl rfl c
  have l3 : dot_S4x512x256_S65536x256_S4x512x65536_2_1_01_0_n_n.lhsIdx (ix3 f o p)
      ((contrEquiv1 _ 256 rfl rfl).symm c) = ix3 f o c := by
    funext ax; apply Fin.ext
    match ax with
    | ⟨0, _⟩ => simp [DotDims.lhsIdx, dot_S4x512x256_S65536x256_S4x512x65536_2_1_01_0_n_n]; rfl
    | ⟨1, _⟩ => simp [DotDims.lhsIdx, dot_S4x512x256_S65536x256_S4x512x65536_2_1_01_0_n_n]; rfl
    | ⟨2, _⟩ => simp [DotDims.lhsIdx, dot_S4x512x256_S65536x256_S4x512x65536_2_1_01_0_n_n]; exact c3
  have r3 : dot_S4x512x256_S65536x256_S4x512x65536_2_1_01_0_n_n.rhsIdx (ix3 f o p)
      ((contrEquiv1 _ 256 rfl rfl).symm c) = ix2 p c := by
    funext ax; apply Fin.ext
    match ax with
    | ⟨0, _⟩ => simp [DotDims.rhsIdx, dot_S4x512x256_S65536x256_S4x512x65536_2_1_01_0_n_n]; rfl
    | ⟨1, _⟩ => simp [DotDims.rhsIdx, dot_S4x512x256_S65536x256_S4x512x65536_2_1_01_0_n_n]; exact c3
  rw [l3, r3]

/-- The features re-laid as [65536, 256], read at the flat position of (b, n): row-major, the same element. -/
theorem featFlat_apply (feat : FVec Ideal S16x4096x256 .f32) (b : Fin 16) (n : Fin 4096) (c : Fin 256) :
    shapeCast S65536x256 feat shapeCasts_S16x4096x256_S65536x256
      (ix2 (⟨b.val * 4096 + n.val, by omega⟩ : Fin 65536) c) = feat (ix3 b n c) :=
  shapeCast_apply feat _ _ (ix3 b n c) (by
    rw [Shape.rowMajor_val_three, Shape.rowMajor_val_two]
    show (b.val * 4096 + n.val) * 256 + c.val = (b.val * 4096 + n.val) * 256 + c.val
    rfl)

/-- The bias spread over the points, read at (filter, point, channel): the filter's bias for the channel. -/
theorem biasAll_apply (bias : FVec Ideal S4x512 .f32) (f : Fin 4) (p : Fin 65536) (o : Fin 512) :
    broadcastInDim S4x65536x512 ![0, 1, 2] bcast_S4x1x512_S4x65536x512_0_1_2
      (broadcastInDim S4x1x512 ![0, 2] bcast_S4x512_S4x1x512_0_2 bias) (ix3 f p o) = bias (ix2 f o) := by
  refine (broadcastInDim_apply _ _ _ _ (ix3 f (0 : Fin 1) o) fun a => ?_).trans ?_
  · match a with
    | ⟨0, _⟩ => rfl
    | ⟨1, _⟩ => rfl
    | ⟨2, _⟩ => rfl
  · refine broadcastInDim_apply _ _ _ _ (ix2 f o) fun a => ?_
    match a with
    | ⟨0, _⟩ => rfl
    | ⟨1, _⟩ => rfl

theorem dense_apply (feat : FVec Ideal S16x4096x256 .f32) (W : FVec Ideal S4x512x256 .f32) (bias : FVec Ideal S4x512 .f32)
    (f : Fin 4) (b : Fin 16) (n : Fin 4096) (o : Fin 512) :
    RefTerm.dense (F := Ideal) feat W bias (ix3 f (⟨b.val * 4096 + n.val, by omega⟩ : Fin 65536) o)
      = (∑ c : Fin 256, feat (ix3 b n c) * W (ix3 f o c)) + bias (ix2 f o) := by
  unfold RefTerm.dense
  rw [addf_apply, biasAll_apply, transpose_ix3_021_apply, dot_apply]
  refine congrArg (· + bias (ix2 f o)) (Finset.sum_congr rfl fun c _ => ?_)
  rw [featFlat_apply, mul_comm]

/-! ## The selection along the filter axis -/

local notation "gth" => gather_S4x65536x512_S1x65536x1_S1x65536x512_2_0_1_1_0_2_11512

/-- Folding bitwise "and" from the set bit over a list whose every element is the set bit leaves the set bit. -/
theorem foldl_andi_one {ι : Type} (x : ι → BitVec 1) : ∀ (l : List ι), (∀ i ∈ l, x i = 1#1) →
    l.foldl (fun r i => IntOp.andi r (x i)) 1#1 = 1#1
  | [], _ => rfl
  | a :: l, h => by
    rw [List.foldl_cons, h a List.mem_cons_self]
    exact foldl_andi_one x l (fun i hi => h i (List.mem_cons_of_mem _ hi))

/-- An index word in 0..3 is not negative, so wrapping by the axis length leaves it. -/
theorem wrapIdx_apply (i3 : IVec S1x65536x1 32) (p : Fin 65536) (f : Fin 4)
    (h : i3 (ix3 (0 : Fin 1) p (0 : Fin 1)) = BitVec.ofNat 32 f.val) :
    RefTerm.wrapIdx i3 (ix3 (0 : Fin 1) p (0 : Fin 1)) = BitVec.ofNat 32 f.val := by
  show Scalar.select (IntOp.cmpi .slt (i3 (ix3 (0 : Fin 1) p (0 : Fin 1))) 0#32)
      (IntOp.addi (i3 (ix3 (0 : Fin 1) p (0 : Fin 1))) 4#32) (i3 (ix3 (0 : Fin 1) p (0 : Fin 1))) = _
  rw [h]
  fin_cases f <;> rfl

/-- An index word in 0..3 passes the bounds test: the "and" over the one-element last axis of
    (0 ≤ index) and (index ≤ 3) is the set bit. -/
theorem inBounds_apply (i4 : IVec S1x65536x1 32) (p : Fin 65536) (f : Fin 4)
    (h : i4 (ix3 (0 : Fin 1) p (0 : Fin 1)) = BitVec.ofNat 32 f.val) :
    RefTerm.inBounds i4 (ix2 (0 : Fin 1) p) = 1#1 := by
  unfold RefTerm.inBounds
  rw [Host.reduce_eq_foldl]
  refine foldl_andi_one _ _ fun i hi => ?_
  have hd := of_decide_eq_true (List.mem_filter.1 hi).2
  have hi3 : i = ix3 (0 : Fin 1) p (0 : Fin 1) := by
    funext a; refine Fin.ext ?_
    match a with
    | ⟨0, _⟩ =>
      have h0 : (i 0).val < 1 := (i 0).isLt
      show (i 0).val = 0
      omega
    | ⟨1, _⟩ =>
      have e := Shape.ReducesTo.drop_apply_val_of_eq reducesTo_S1x65536x1_S1x65536_d2 i 1 1
      rw [hd] at e
      exact e.symm
    | ⟨2, _⟩ =>
      have h2 : (i 2).val < 1 := (i 2).isLt
      show (i 2).val = 0
      omega
  rw [hi3]
  show IntOp.andi (IntOp.cmpi .sge (i4 (ix3 (0 : Fin 1) p (0 : Fin 1))) 0#32)
    (IntOp.cmpi .sle (i4 (ix3 (0 : Fin 1) p (0 : Fin 1))) 3#32) = 1#1
  rw [h]
  fin_cases f <;> rfl

/-- The gather along the filter axis, read at (0, point, channel) where the point's index word is in 0..3: the
    operand at (that filter, point, channel) — the clamp into 0..3 leaves the index, the point axis is a batch axis,
    the channel axis is the slice. -/
theorem gather_apply (all : FVec Ideal S4x65536x512 .f32) (i4 : IVec S1x65536x1 32) (p : Fin 65536) (o : Fin 512)
    (f : Fin 4) (h : i4 (ix3 (0 : Fin 1) p (0 : Fin 1)) = BitVec.ofNat 32 f.val) :
    Host.gather gth all i4 (ix3 (0 : Fin 1) p o) = all (ix3 f p o) := by
  have e0 : GatherDims.start gth (ix3 (0 : Fin 1) p o) i4 (0 : Fin 3)
      + GatherDims.batchCoord gth (ix3 (0 : Fin 1) p o) (0 : Fin 3)
      + GatherDims.offCoord gth (ix3 (0 : Fin 1) p o) (0 : Fin 3) = f.val := by
    rw [GatherDims.batchCoord_eq_zero _ _ _ (by decide), GatherDims.offCoord_eq_zero _ _ _ (by decide)]
    simp only [Nat.add_zero]
    unfold GatherDims.start
    rw [dif_pos (show (0 : Fin 3) ∈ GatherDims.startIndexMap gth from List.mem_singleton.mpr rfl)]
    have hsi : GatherDims.siIdx gth (ix3 (0 : Fin 1) p o) ⟨List.idxOf (0 : Fin 3) (GatherDims.startIndexMap gth),
        List.idxOf_lt_length_iff.2 (List.mem_singleton.mpr rfl)⟩ = ix3 (0 : Fin 1) p (0 : Fin 1) := by
      funext b; refine Fin.ext ?_
      match b with
      | ⟨0, _⟩ => rfl
      | ⟨1, _⟩ => rfl
      | ⟨2, _⟩ => rfl
    rw [hsi, h]
    fin_cases f <;> rfl
  have e1 : GatherDims.start gth (ix3 (0 : Fin 1) p o) i4 (1 : Fin 3)
      + GatherDims.batchCoord gth (ix3 (0 : Fin 1) p o) (1 : Fin 3)
      + GatherDims.offCoord gth (ix3 (0 : Fin 1) p o) (1 : Fin 3) = p.val := by
    rw [GatherDims.start_batching _ _ _ _ (by decide), GatherDims.offCoord_eq_zero _ _ _ (by decide)]
    simp only [Nat.add_zero, Nat.zero_add]
    rfl
  have e2 : GatherDims.start gth (ix3 (0 : Fin 1) p o) i4 (2 : Fin 3)
      + GatherDims.batchCoord gth (ix3 (0 : Fin 1) p o) (2 : Fin 3)
      + GatherDims.offCoord gth (ix3 (0 : Fin 1) p o) (2 : Fin 3) = o.val := by
    rw [GatherDims.batchCoord_eq_zero _ _ _ (by decide)]
    unfold GatherDims.start
    rw [dif_neg (by decide)]
    simp only [Nat.add_zero, Nat.zero_add]
    rfl
  unfold Host.gather
  congr 1
  funext a
  refine Fin.ext ?_
  show GatherDims.start gth (ix3 (0 : Fin 1) p o) i4 a + GatherDims.batchCoord gth (ix3 (0 : Fin 1) p o) a
    + GatherDims.offCoord gth (ix3 (0 : Fin 1) p o) a = _
  match a with
  | ⟨0, _⟩ => exact e0
  | ⟨1, _⟩ => exact e1
  | ⟨2, _⟩ => exact e2

theorem takeAlong_apply (all : FVec Ideal S4x65536x512 .f32) (idx : IVec S65536 32) (p : Fin 65536) (o : Fin 512) (f : Fin 4)
    (h : idx (ix1 p) = BitVec.ofNat 32 f.val) :
    RefTerm.takeAlong (F := Ideal) all (broadcastInDim S1x65536x1 ![1] bcast_S65536_S1x65536x1_1 idx) (ix3 (0 : Fin 1) p o)
      = all (ix3 f p o) := by
  have h3 : broadcastInDim S1x65536x1 ![1] bcast_S65536_S1x65536x1_1 idx (ix3 (0 : Fin 1) p (0 : Fin 1))
      = BitVec.ofNat 32 f.val := by
    rw [← h]
    refine broadcastInDim_apply _ _ _ _ (ix1 p) fun a => ?_
    match a with
    | ⟨0, _⟩ => rfl
  have hw := wrapIdx_apply _ p f h3
  unfold RefTerm.takeAlong
  rw [select_apply]
  have hb : broadcastInDim S1x65536x512 ![0, 1] bcast_S1x65536_S1x65536x512_0_1
      (RefTerm.inBounds (RefTerm.wrapIdx (broadcastInDim S1x65536x1 ![1] bcast_S65536_S1x65536x1_1 idx)))
      (ix3 (0 : Fin 1) p o) = 1#1 := by
    refine (broadcastInDim_apply _ _ _ _ (ix2 (0 : Fin 1) p) fun a => ?_).trans (inBounds_apply _ p f hw)
    match a with
    | ⟨0, _⟩ => rfl
    | ⟨1, _⟩ => rfl
  rw [hb, select_one]
  exact gather_apply all _ p o f hw

/-! ## The reference's value -/

theorem refOut_eq_G_of_route (feat : FVec Ideal S16x4096x256 .f32) (xyz : FVec Ideal S16x4096x3 .f32)
    (W : FVec Ideal S4x512x256 .f32) (bias : FVec Ideal S4x512 .f32)
    (hroute : ∀ (b : Fin 16) (n : Fin 4096),
      RefTerm.routeIdx (F := Ideal) xyz (ix1 (⟨b.val * 4096 + n.val, by omega⟩ : Fin 65536))
        = BitVec.ofNat 32 (Cert.Moe.bucket (Cert.Moe.sqRadius xyz b n)).val) :
    RefTerm.refOut (F := Ideal) feat xyz W bias = Cert.Moe.G feat xyz W bias := by
  funext j
  obtain ⟨b, n, o, rfl⟩ : ∃ (b : Fin 16) (n : Fin 4096) (o : Fin 512), j = ix3 b n o := ⟨j 0, j 1, j 2, eq_ix3 j⟩
  unfold RefTerm.refOut
  refine (shapeCast_apply _ _ _ (ix2 (⟨b.val * 4096 + n.val, by omega⟩ : Fin 65536) o) (by
    rw [Shape.rowMajor_val_three, Shape.rowMajor_val_two]
    show (b.val * 4096 + n.val) * 512 + o.val = (b.val * 4096 + n.val) * 512 + o.val
    rfl)).trans ?_
  rw [shapeCast_1ab_ab_apply, takeAlong_apply _ _ _ _ (Cert.Moe.bucket (Cert.Moe.sqRadius xyz b n)) (hroute b n),
    dense_apply, Cert.Moe.G_apply]
  rfl

end Cert.ReferenceIdeal.RefDense

end
-- ==== Proof.RefRun.lean ====
/-
  The reference's run.  The reference program is a straight line of host operations: its main function's own
  lines, and at each of its three calls (the point radius, the arg-max over the radius tests, the selection along the
  filter axis) the callee's lines over that call's buffers.  Written out as one list, the program is the sequencing
  of that list; every buffer then ends at the list's fold over the launch contents, and at the result buffer that fold
  is, by unfolding, the composition of pure stages `RefTerm.refOut` of the four argument arrays.  The four argument
  buffers are written by no operation and keep their contents.
-/
import proofs.«166644_j472446403136_2_alg».proof.ReferenceIdeal
import proofs.«166644_j472446403136_2_alg».proof.Proof.Gen.ReferenceIdeal
import proofs.«166644_j472446403136_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The main function's operations in order, each call replaced by its callee's operations over the call's own
    buffers: three of its own, the radius (4), five of its own, the arg-max (5), six of its own, the selection
    (22), two of its own. -/
abbrev ops : List (HloOp τ sig (Elt F)) :=
  [ nullary main_cst (fun i => FloatOps.ofBits .f32 (lit0 (S4.rowMajor i))),
    reshape main_arg0 main_v0 rfl shapeCasts_S16x4096x256_S65536x256,
    reshape main_arg1 main_v1 rfl shapeCasts_S16x4096x3_S65536x3,
    TRef.binary (.of main_v1) (.of main_v1) main_call0.v0 mulf,
    TRef.nullary main_call0.cst (constant S_ .f32 0x00000000#32),
    TRef.binary main_call0.v0 main_call0.cst main_call0.v1 (fun x v => Host.reduceAdd x v reducesTo_S65536x3_S65536_d1 h_S_),
    TRef.unary main_call0.v1 main_call0.v2 Host.sqrt,
    unary main_v2 main_v3 (broadcastInDim S65536x1 ![0] bcast_S65536_S65536x1_0 : (⟨S65536, .f32⟩ : BufTy).Contents (Elt F) → (⟨S65536x1, .f32⟩ : BufTy).Contents (Elt F)),
    unary main_cst main_v4 (broadcastInDim S1x4 ![1] bcast_S4_S1x4_1 : (⟨S4, .f32⟩ : BufTy).Contents (Elt F) → (⟨S1x4, .f32⟩ : BufTy).Contents (Elt F)),
    unary main_v3 main_v5 (broadcastInDim S65536x4 ![0, 1] bcast_S65536x1_S65536x4_0_1 : (⟨S65536x1, .f32⟩ : BufTy).Contents (Elt F) → (⟨S65536x4, .f32⟩ : BufTy).Contents (Elt F)),
    unary main_v4 main_v6 (broadcastInDim S65536x4 ![0, 1] bcast_S1x4_S65536x4_0_1 : (⟨S1x4, .f32⟩ : BufTy).Contents (Elt F) → (⟨S65536x4, .f32⟩ : BufTy).Contents (Elt F)),
    binary main_v5 main_v6 main_v7 (cmpf .olt : (⟨S65536x4, .f32⟩ : BufTy).Contents (Elt F) → (⟨S65536x4, .f32⟩ : BufTy).Contents (Elt F) → (⟨S65536x4, .i1⟩ : BufTy).Contents (Elt F)),
    TRef.nullary main_call1.v0 (iotaInDim S65536x4 32 1),
    TRef.nullary main_call1.c (constantI S_ 1 0#1),
    TRef.nullary main_call1.c_0 (constantI S_ 32 0#32),
    TRef.quaternary (.of main_v7) main_call1.v0 main_call1.c main_call1.c_0 main_call1.v1_0 (fun x y u v j => (Host.reduce2 reducer_argmax_i1_i32 x y u v reducesTo_S65536x4_S65536_d1 h_S_ j).1),
    TRef.quaternary (.of main_v7) main_call1.v0 main_call1.c main_call1.c_0 main_call1.v1_1 (fun x y u v j => (Host.reduce2 reducer_argmax_i1_i32 x y u v reducesTo_S65536x4_S65536_d1 h_S_ j).2),
    binary main_arg2 main_v0 main_v9 ((fun l r => Host.dotGeneral dot_S4x512x256_S65536x256_S4x512x65536_2_1_01_0_n_n none l r) : (⟨S4x512x256, .f32⟩ : BufTy).Contents (Elt F) → (⟨S65536x256, .f32⟩ : BufTy).Contents (Elt F) → (⟨S4x512x65536, .f32⟩ : BufTy).Contents (Elt F)),
    unary main_v9 main_v10 ((transpose S4x65536x512 [0, 2, 1] · transposes_S4x512x65536_S4x65536x512_0_2_1) : (⟨S4x512x65536, .f32⟩ : BufTy).Contents (Elt F) → (⟨S4x65536x512, .f32⟩ : BufTy).Contents (Elt F)),
    unary main_arg3 main_v11 (broadcastInDim S4x1x512 ![0, 2] bcast_S4x512_S4x1x512_0_2 : (⟨S4x512, .f32⟩ : BufTy).Contents (Elt F) → (⟨S4x1x512, .f32⟩ : BufTy).Contents (Elt F)),
    unary main_v11 main_v12 (broadcastInDim S4x65536x512 ![0, 1, 2] bcast_S4x1x512_S4x65536x512_0_1_2 : (⟨S4x1x512, .f32⟩ : BufTy).Contents (Elt F) → (⟨S4x65536x512, .f32⟩ : BufTy).Contents (Elt F)),
    binary main_v10 main_v12 main_v13 (addf : (⟨S4x65536x512, .f32⟩ : BufTy).Contents (Elt F) → (⟨S4x65536x512, .f32⟩ : BufTy).Contents (Elt F) → (⟨S4x65536x512, .f32⟩ : BufTy).Contents (Elt F)),
    unary main_v8 main_v14 (broadcastInDim S1x65536x1 ![1] bcast_S65536_S1x65536x1_1 : (⟨S65536, .i32⟩ : BufTy).Contents (Elt F) → (⟨S1x65536x1, .i32⟩ : BufTy).Contents (Elt F)),
    TRef.nullary main_call2.c (constantI S_ 32 0#32),
    TRef.unary main_call2.c main_call2.v0 (broadcastInDim S1x65536x1 ![] bcast_S_S1x65536x1),
    TRef.binary (.of main_v14) main_call2.v0 main_call2.v1 (cmpi .slt),
    TRef.nullary main_call2.c_0 (constantI S_ 32 4#32),
    TRef.unary main_call2.c_0 main_call2.v2 (broadcastInDim S1x65536x1 ![] bcast_S_S1x65536x1),
    TRef.binary (.of main_v14) main_call2.v2 main_call2.v3 addi,
    TRef.ternary main_call2.v1 main_call2.v3 (.of main_v14) main_call2.v4 select,
    TRef.nullary main_call2.c_1 (constantI S1 32 3#32),
    TRef.nullary main_call2.c_2 (constantI S_ 32 0#32),
    TRef.unary main_call2.c_2 main_call2.v5 (broadcastInDim S1x65536x1 ![] bcast_S_S1x65536x1),
    TRef.binary main_call2.v4 main_call2.v5 main_call2.v6 (cmpi .sge),
    TRef.unary main_call2.c_1 main_call2.v7 (broadcastInDim S1x1x1 ![2] bcast_S1_S1x1x1_2),
    TRef.unary main_call2.v7 main_call2.v8 (broadcastInDim S1x65536x1 ![0, 1, 2] bcast_S1x1x1_S1x65536x1_0_1_2),
    TRef.binary main_call2.v4 main_call2.v8 main_call2.v9 (cmpi .sle),
    TRef.binary main_call2.v6 main_call2.v9 main_call2.v10 andi,
    TRef.nullary main_call2.c_3 (constantI S_ 1 1#1),
    TRef.binary main_call2.v10 main_call2.c_3 main_call2.v11 (fun x v => Host.reduce IntOp.andi x v reducesTo_S1x65536x1_S1x65536_d2 h_S_),
    TRef.binary (.of main_v13) main_call2.v4 main_call2.v12 (fun x i => Host.gather gather_S4x65536x512_S1x65536x1_S1x65536x512_2_0_1_1_0_2_11512 x i),
    TRef.unary main_call2.v11 main_call2.v13 (broadcastInDim S1x65536x512 ![0, 1] bcast_S1x65536_S1x65536x512_0_1),
    TRef.nullary main_call2.cst (constant S_ .f32 0x7FC00000#32),
    TRef.unary main_call2.cst main_call2.v14 (broadcastInDim S1x65536x512 ![] bcast_S_S1x65536x512),
    TRef.ternary main_call2.v13 main_call2.v12 main_call2.v14 main_call2.v15 select,
    reshape main_v15 main_v16 rfl shapeCasts_S1x65536x512_S65536x512,
    reshape main_v16 main_v17 rfl shapeCasts_S65536x512_S16x4096x512 ]

-- forty-seven binds re-associated: the rewrite under the chain recurses once per statement
set_option maxRecDepth 1024 in
/-- The main function is that straight line: the three callees' definitions unfolded at their calls and the calls'
    records at their fields, both sides are one chain of steps once sequencing is re-associated. -/
theorem main_eq (c : Dev nD) : main (F := F) c = seq ops := by
  simp only [main, fn_norm.body, fn_argmax.body, fn_take_along_axis.body, seq, bind_assoc, pure_bind]

section Stages

/- The reductions, the gather and the square root are kept folded while the stages are read out: no equation below
   looks inside them. -/
attribute [local irreducible] Host.reduce Host.reduce2 Host.gather Host.reduceAdd Host.sqrt

variable (V : Valuation τ sig (Elt F))

/-! Each buffer of the line is written once, so after the whole line it holds its operation's function of what
    its operand buffers hold after the whole line.  Stage by stage: -/

/-- The coordinates re-laid as one row per point. -/
theorem v1_eq :
    after ops V (main_v1 : DevRef τ sig) = shapeCast S65536x3 (V (main_arg1 : DevRef τ sig)) shapeCasts_S16x4096x3_S65536x3 := by
  after_results_simp
  rfl

/-- The features re-laid as one row per point. -/
theorem v0_eq :
    after ops V (main_v0 : DevRef τ sig) = shapeCast S65536x256 (V (main_arg0 : DevRef τ sig)) shapeCasts_S16x4096x256_S65536x256 := by
  after_results_simp
  rfl

set_option maxRecDepth 8192 in
/-- The radius of each point. -/
theorem v2_eq :
    after ops V (main_v2 : DevRef τ sig) = RefTerm.pointNorm (after ops V (main_v1 : DevRef τ sig)) := by
  unfold RefTerm.pointNorm
  after_results_simp
  rfl

set_option maxRecDepth 8192 in
/-- The four radius tests of each point. -/
theorem v7_eq :
    after ops V (main_v7 : DevRef τ sig) = RefTerm.belowRadius (after ops V (main_v2 : DevRef τ sig)) := by
  unfold RefTerm.belowRadius RefTerm.radii
  after_results_simp
  rfl

set_option maxRecDepth 8192 in
/-- The first test that holds. -/
theorem v8_eq :
    after ops V (main_v8 : DevRef τ sig) = RefTerm.firstTrue (after ops V (main_v7 : DevRef τ sig)) := by
  unfold RefTerm.firstTrue
  after_results_simp
  rfl

set_option maxRecDepth 8192 in
/-- Every filter's affine map of every point. -/
theorem v13_eq :
    after ops V (main_v13 : DevRef τ sig)
      = RefTerm.dense (V (main_arg0 : DevRef τ sig)) (V (main_arg2 : DevRef τ sig)) (V (main_arg3 : DevRef τ sig)) := by
  unfold RefTerm.dense
  after_results_simp
  rfl

set_option maxRecDepth 8192 in
/-- The route index as a column along the point axis. -/
theorem v14_eq :
    after ops V (main_v14 : DevRef τ sig)
      = broadcastInDim S1x65536x1 ![1] bcast_S65536_S1x65536x1_1 (after ops V (main_v8 : DevRef τ sig)) := by
  after_results_simp

set_option maxRecDepth 8192 in
/-- The index wrapped. -/
theorem wrap_eq :
    after ops V (main_call2_v4 : DevRef τ sig) = RefTerm.wrapIdx (after ops V (main_v14 : DevRef τ sig)) := by
  unfold RefTerm.wrapIdx
  after_results_simp
  rfl

set_option maxRecDepth 8192 in
/-- The wrapped index's bounds test. -/
theorem inb_eq :
    after ops V (main_call2_v11 : DevRef τ sig) = RefTerm.inBounds (after ops V (main_call2_v4 : DevRef τ sig)) := by
  unfold RefTerm.inBounds
  after_results_simp
  rfl

set_option maxRecDepth 8192 in
/-- The selection along the filter axis, from the wrapped index and its bounds test. -/
theorem v15_eq :
    after ops V (main_v15 : DevRef τ sig)
      = select (broadcastInDim S1x65536x512 ![0, 1] bcast_S1x65536_S1x65536x512_0_1 (after ops V (main_call2_v11 : DevRef τ sig)))
          (Host.gather gather_S4x65536x512_S1x65536x1_S1x65536x512_2_0_1_1_0_2_11512 (after ops V (main_v13 : DevRef τ sig))
            (after ops V (main_call2_v4 : DevRef τ sig)))
          (broadcastInDim S1x65536x512 ![] bcast_S_S1x65536x512 (constant S_ .f32 0x7FC00000#32)) := by
  after_results_simp
  rfl

set_option maxRecDepth 8192 in
/-- The result re-laid. -/
theorem v17_eq :
    after ops V (main_v17 : DevRef τ sig)
      = shapeCast S16x4096x512
          (shapeCast S65536x512 (after ops V (main_v15 : DevRef τ sig)) shapeCasts_S1x65536x512_S65536x512)
          shapeCasts_S65536x512_S16x4096x512 := by
  after_results_simp
  rfl

/-- The fold at the result buffer is the composed stages of the four arguments' contents. -/
theorem out_eq :
    after ops V (main_v17 : DevRef τ sig)
      = RefTerm.refOut (V (main_arg0 : DevRef τ sig)) (V (main_arg1 : DevRef τ sig)) (V (main_arg2 : DevRef τ sig))
          (V (main_arg3 : DevRef τ sig)) := by
  unfold RefTerm.refOut RefTerm.takeAlong RefTerm.routeIdx
  rw [v17_eq, v15_eq, inb_eq, wrap_eq, v14_eq, v8_eq, v7_eq, v2_eq, v1_eq, v13_eq]

end Stages

/-- No operation writes argument 0's buffer: it keeps its contents. -/
theorem arg0_eq (V : Valuation τ sig (Elt F)) :
    after ops V (main_arg0 : DevRef τ sig) = V (main_arg0 : DevRef τ sig) := by
  after_results_simp

/-- No operation writes argument 1's buffer: it keeps its contents. -/
theorem arg1_eq (V : Valuation τ sig (Elt F)) :
    after ops V (main_arg1 : DevRef τ sig) = V (main_arg1 : DevRef τ sig) := by
  after_results_simp

/-- No operation writes argument 2's buffer: it keeps its contents. -/
theorem arg2_eq (V : Valuation τ sig (Elt F)) :
    after ops V (main_arg2 : DevRef τ sig) = V (main_arg2 : DevRef τ sig) := by
  after_results_simp

/-- No operation writes argument 3's buffer: it keeps its contents. -/
theorem arg3_eq (V : Valuation τ sig (Elt F)) :
    after ops V (main_arg3 : DevRef τ sig) = V (main_arg3 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., reshape_bufs_sub .., reshape_bufs_sub .., binary_bufs_sub .., nullary_bufs_sub .., binary_bufs_sub .., unary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., reshape_bufs_sub ..⟩

/-- On every device, for any float values, from any memory with zero counters: every weakly fair execution of the
    main function terminates with the result buffer at the composed stages of the four arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = RefTerm.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v17).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.Claims.lean ====
/-
  The five claims, assembled.

  The two kernel programs' frames are the generated ones.  The reference's run ends with its result buffer at the
  composed stages of its four argument arrays and the arguments unchanged; at the extended reals that composition is
  the common specification (each point routed by its squared radius to one of four filters, the routed filter's affine
  map of the point's features), so the reference's result is that function of its arguments, and dropping the result
  gives its frame.  Nothing was rewritten between the kernel and its idealization.  For the value claim the kernel
  program's run — its result buffer ending at the same function of its arguments, the arguments unchanged — is taken
  as a hypothesis: from memories that agree on the arguments both programs then end at that one function of the same
  four arrays.
-/
import proofs.«166644_j472446403136_2_alg».proof.Defs
import proofs.«166644_j472446403136_2_alg».proof.Proof.Gen.Kernel.Frame
import proofs.«166644_j472446403136_2_alg».proof.Proof.Gen.KernelIdeal.Frame
import proofs.«166644_j472446403136_2_alg».proof.Proof.Gen.ReferenceIdeal
import proofs.«166644_j472446403136_2_alg».proof.Proof.Gen.Pre_finite_inputs
import proofs.«166644_j472446403136_2_alg».proof.Proof.Spec
import proofs.«166644_j472446403136_2_alg».proof.Proof.RefTerm
import proofs.«166644_j472446403136_2_alg».proof.Proof.RefRoute
import proofs.«166644_j472446403136_2_alg».proof.Proof.RefDense
import proofs.«166644_j472446403136_2_alg».proof.Proof.RefRun

noncomputable section

namespace Cert.Proof.Claims

open Idealize.ShloMosaic Idealize.ShloMosaic.TcCoe Idealize.SL.Sem

/-- The reference at the extended reals, from any memory with zero counters: every weakly fair execution terminates
    with the result buffer at the common specification of the four argument arrays, and the arguments unchanged.
    The run gives the composed stages; every point's routing index is the filter its squared radius selects, and
    with that the composed stages are the specification. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v17) = Cert.Moe.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono
    (fun _ h c => ⟨(h c).1.trans (Cert.ReferenceIdeal.RefDense.refOut_eq_G_of_route _ _ _ _ (Cert.ReferenceIdeal.RefRoute.routeIdx_apply _)), (h c).2⟩)
    (Cert.ReferenceIdeal.RefRun.run (F := Ideal) m ρ)

theorem frame_k : Cert.frame_Kernel := fun m ρ _ => Cert.Kernel.Gen.frame m ρ
theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Nothing was rewritten: the idealization is the program's own text read at the extended reals. -/
theorem preserves : Cert.preserves_Kernel_KernelIdeal := trivial

/-- Given the kernel program's run — at the extended reals its result buffer ends at the common specification of its
    four argument arrays, the arguments unchanged —, the two programs, from memories that agree on the arguments, end
    with equal results: the reference's result is the same specification of its own arguments, which are the kernel's. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c.tc : Thread Cert.KernelIdeal.nD Cert.KernelIdeal.τ).loc Cert.KernelIdeal.main_v6) = Cert.Moe.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :
    Cert.algebraic_KernelIdeal_ReferenceIdeal := by
  intro m ρ m' ρ' _ hagree
  refine ⟨fun c => Cert.Moe.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hk m ρ, ?_⟩
  refine (θ_run Cert.ReferenceIdeal.defs _ _).mono (fun _ h c => ⟨(h c).1.trans ?_, (h c).2⟩) (ref_run m' ρ')
  rw [(hagree c).1, (hagree c).2.1, (hagree c).2.2.1, (hagree c).2.2.2]

/-- The certificate's claim, given the kernel program's run. -/
theorem claim_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c.tc : Thread Cert.KernelIdeal.nD Cert.KernelIdeal.τ).loc Cert.KernelIdeal.main_v6) = Cert.Moe.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hk⟩

end Cert.Proof.Claims

end
-- ==== Proof.KBody.lean ====
/-
  What the kernel body leaves in its output block, as a pure function of the four input blocks.

  The body packs four column slabs into a [2048, 1024] scratch: slab f (columns 256 f … 256 f + 255) is the block
  of features with every row multiplied by that row's 0-or-1 routing weight for filter f.  It then multiplies the
  packed scratch by the stacked [1024, 512] weights and adds the routing-weighted sum of the four bias rows.  Its
  one store covers the whole output block, so the block ends holding that store's payload; the scratch, read back
  after the four slab stores, is the slabs laid side by side.
-/
import proofs.«166644_j472446403136_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- The four slab stores into the scratch, last first: columns 768…, 512…, 256…, 0…. -/
def slabs (x0 : Vec F S2048x256 .f32) (x1 : Vec F S2048x3 .f32) : List (View.Piece (Elt F) S2048x1024 .bf16) :=
  [⟨Rect.unit ![0, 768] S2048x256.size inb_S2048x1024_S2048x256_0_768, k0_pay1 (k0_pay23 (k0_pay3 x0) (k0_pay15 x1))⟩,
   ⟨Rect.unit ![0, 512] S2048x256.size inb_S2048x1024_S2048x256_0_512, k0_pay21 (k0_pay3 x0) (k0_pay12 x1)⟩,
   ⟨Rect.unit ![0, 256] S2048x256.size inb_S2048x1024_S2048x256_0_256, k0_pay20 (k0_pay3 x0) (k0_pay9 x1)⟩,
   ⟨Rect.unit ![0, 0] S2048x256.size inb_S2048x1024_S2048x256_0_0, k0_pay18 x0 x1⟩]

/-- The scratch as the matrix product reads it back: the slabs side by side. -/
def packed (x0 : Vec F S2048x256 .f32) (x1 : Vec F S2048x3 .f32) : Vec F S2048x1024 .bf16 :=
  fun j => View.canon (slabs x0 x1) ((Rect.unit ![0, 0] S2048x1024.size inb_S2048x1024_S2048x1024_0_0).toLoadRect.idx j)

/-- The output block the body leaves: the packed scratch times the stacked weights, plus the routed bias. -/
def bodyOut (x0 : Vec F S2048x256 .f32) (x1 : Vec F S2048x3 .f32) (x2 : Vec F S1024x512 .bf16) (x3 : Vec F S4x512 .f32) :
    FVec F S2048x512 .f32 :=
  k0_pay2 (k0_pay15 x1)
    (k0_pay22 (k0_pay9 x1) (k0_pay12 x1) k0_pay17 (k0_pay19 x1)
      (View.ld x3 (Rect.unit ![0, 0] S1x512.size inb_S4x512_S1x512_0_0))
      (View.ld x3 (Rect.unit ![1, 0] S1x512.size inb_S4x512_S1x512_1_0))
      (View.ld x3 (Rect.unit ![2, 0] S1x512.size inb_S4x512_S1x512_2_0)))
    (View.ld x3 (Rect.unit ![3, 0] S1x512.size inb_S4x512_S1x512_3_0))
    (packed x0 x1) x2

/-- The run's found piece for the output block is that payload, on any staging memrefs. -/
theorem out_A (c : Dev nD) (i : grid0.Coords) (a1 : Memref sig .tc .vmem S2048x256 .f32) (h1 : a1.IsWhole)
    (a2 : Memref sig .tc .vmem S2048x3 .f32) (h2 : a2.IsWhole) (a3 : Memref sig .tc .vmem S1024x512 .bf16) (h3 : a3.IsWhole)
    (a4 : Memref sig .tc .vmem S4x512 .f32) (h4 : a4.IsWhole) (a5 : Memref sig .tc .vmem S2048x512 .f32) (h5 : a5.IsWhole)
    (a6 : Memref sig .tc .vmem S2048x1024 .bf16) (h6 : a6.IsWhole)
    (x0 : Vec F S2048x256 .f32) (x1 : Vec F S2048x3 .f32) (x2 : Vec F S1024x512 .bf16) (x3 : Vec F S4x512 .f32) :
    out0_A_4 c i a1 h1 a2 h2 a3 h3 a4 h4 a5 h5 a6 h6 x0 x1 x2 x3 = bodyOut x0 x1 x2 x3 := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S2048x256) hz, View.ld_unit_zero (S := S2048x3) hz, View.ld_unit_zero (S := S1024x512) hz]
  rw [View.readCov_eq_canon']
  rfl

end Cert.KernelIdeal.KVal

end
-- ==== Proof.KRoute.lean ====
/-
  The routing logic and the algebra that collapses a routed sum, stated without any program.

  Four comparisons "squared radius below bound f" give four bits.  The kernel forms, from them, one 0-or-1 mask per
  filter: filter f's mask is set when bit f is set and no earlier bit is, and filter 0's mask is also set when no
  bit is set at all.  Exactly one mask is set: that of the first set bit, or of filter 0 when there is none — the
  bucket of the squared radius.  A mask bit widened to an integer and converted to a float is 1 or 0.

  With such one-hot weights, a sum over the four filters of weighted terms keeps the routed filter's term only; this
  holds for all extended reals, since zero times anything is zero and adding zero changes nothing.
-/
import proofs.«166644_j472446403136_2_alg».proof.Proof.Spec

noncomputable section

open scoped BigOperators

namespace Cert.Moe

open Idealize.ShloMosaic

/-- The index of the first set bit among four, 0 when none is set. -/
def firstOf (p0 p1 p2 p3 : Bool) : Fin 4 := if p0 then 0 else if p1 then 1 else if p2 then 2 else if p3 then 3 else 0

/-- The bucket of a squared radius is the first bound strictly above it. -/
theorem bucket_eq_firstOf (s : EReal) :
    bucket s = firstOf (decide (s < ((1 : ℝ) : EReal))) (decide (s < ((9 / 4 : ℝ) : EReal))) (decide (s < ((4 : ℝ) : EReal)))
      (decide (s < ((10000 : ℝ) : EReal))) := by
  unfold bucket firstOf
  simp only [decide_eq_true_eq]

/-- Filter 0's mask: bit 0, or no bit at all. -/
theorem mask0_eq (p0 p1 p2 p3 : Bool) :
    IntOp.ori (IntOp.andi (BitVec.ofBool p0) 1#1)
      (IntOp.andi (IntOp.andi (IntOp.andi (IntOp.andi 1#1 (IntOp.xori (BitVec.ofBool p0) 1#1)) (IntOp.xori (BitVec.ofBool p1) 1#1))
        (IntOp.xori (BitVec.ofBool p2) 1#1)) (IntOp.xori (BitVec.ofBool p3) 1#1))
      = BitVec.ofBool (decide (firstOf p0 p1 p2 p3 = 0)) := by
  cases p0 <;> cases p1 <;> cases p2 <;> cases p3 <;> decide

/-- Filter 1's mask: bit 1 and not bit 0. -/
theorem mask1_eq (p0 p1 p2 p3 : Bool) :
    IntOp.andi (BitVec.ofBool p1) (IntOp.andi 1#1 (IntOp.xori (BitVec.ofBool p0) 1#1))
      = BitVec.ofBool (decide (firstOf p0 p1 p2 p3 = 1)) := by
  cases p0 <;> cases p1 <;> cases p2 <;> cases p3 <;> decide

/-- Filter 2's mask: bit 2 and neither bit 0 nor bit 1. -/
theorem mask2_eq (p0 p1 p2 p3 : Bool) :
    IntOp.andi (BitVec.ofBool p2) (IntOp.andi (IntOp.andi 1#1 (IntOp.xori (BitVec.ofBool p0) 1#1)) (IntOp.xori (BitVec.ofBool p1) 1#1))
      = BitVec.ofBool (decide (firstOf p0 p1 p2 p3 = 2)) := by
  cases p0 <;> cases p1 <;> cases p2 <;> cases p3 <;> decide

/-- Filter 3's mask: bit 3 and none of the bits before it. -/
theorem mask3_eq (p0 p1 p2 p3 : Bool) :
    IntOp.andi (BitVec.ofBool p3)
      (IntOp.andi (IntOp.andi (IntOp.andi 1#1 (IntOp.xori (BitVec.ofBool p0) 1#1)) (IntOp.xori (BitVec.ofBool p1) 1#1))
        (IntOp.xori (BitVec.ofBool p2) 1#1))
      = BitVec.ofBool (decide (firstOf p0 p1 p2 p3 = 3)) := by
  cases p0 <;> cases p1 <;> cases p2 <;> cases p3 <;> decide

/-- A mask bit widened to 32 bits and read as a signed integer is 1 or 0. -/
theorem weight_ofBool (q : Bool) : ((((BitVec.ofBool q).setWidth 32).toInt : ℝ) : EReal) = if q then 1 else 0 := by
  cases q
  · have : ((BitVec.ofBool false).setWidth 32).toInt = 0 := by decide
    rw [this]; simp
  · have : ((BitVec.ofBool true).setWidth 32).toInt = 1 := by decide
    rw [this]; simp

/-- A sum over 1024 positions is the sum over four blocks of 256. -/
theorem sum_four_blocks (g : Fin 1024 → EReal) :
    ∑ k : Fin 1024, g k = ∑ f : Fin 4, ∑ c : Fin 256, g ⟨c.val + 256 * f.val, by omega⟩ := by
  rw [← Fintype.sum_prod_type' (f := fun (f : Fin 4) (c : Fin 256) => g ⟨c.val + 256 * f.val, by omega⟩)]
  exact (Fintype.sum_equiv (finProdFinEquiv (m := 4) (n := 256)) _ _ (fun p => rfl)).symm

/-- One-hot weights keep the routed block of a blocked sum. -/
theorem routed_sum (f : Fin 4) (x : Fin 256 → EReal) (w : Fin 4 → Fin 256 → EReal) :
    ∑ g : Fin 4, ∑ c : Fin 256, (x c * (if f = g then (1 : EReal) else 0)) * w g c = ∑ c : Fin 256, x c * w f c := by
  rw [Finset.sum_eq_single f]
  · exact Finset.sum_congr rfl fun c _ => by rw [if_pos rfl, mul_one]
  · intro g _ hg
    exact Finset.sum_eq_zero fun c _ => by rw [if_neg (Ne.symm hg), mul_zero, zero_mul]
  · intro h; exact absurd (Finset.mem_univ f) h

/-- One-hot weights keep the routed term of the four-term bias chain. -/
theorem routed_bias (f : Fin 4) (b : Fin 4 → EReal) :
    ((((0 + (if f = 0 then (1 : EReal) else 0) * b 0) + (if f = 1 then (1 : EReal) else 0) * b 1)
      + (if f = 2 then (1 : EReal) else 0) * b 2) + (if f = 3 then (1 : EReal) else 0) * b 3) = b f := by
  fin_cases f <;> simp

end Cert.Moe

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.LibRowBlock.lean ====
/-
  Row blocks of a matrix product and of a row broadcast, at the ideal values.

  A kernel that walks the rows of a matrix in blocks computes, per block, the product of the block with the whole
  right operand and adds a bias row; the reference computes the product of the whole matrix once. At the ideal
  values both are the same sums, entry by entry: a plain product read at an entry is the sum over the contracted
  coordinate of the operands' products (for the kernel's product into a zero accumulator and for the host's), so
  the entry (p, q) of the product of the block of rows starting at row o is the entry (o + p, q) of the whole
  product; and a vector repeated along rows reads, at any entry, the vector at the entry's column.
-/
import Idealize.ShloMosaic.Lib.ValueLayout
import Idealize.ShloMosaic.PureOps.Ideal.Laws

noncomputable section

open scoped BigOperators

namespace Cert.LibRowBlock

open Idealize.ShloMosaic Idealize.ShloMosaic.ValueIdx

/-! ## A plain product read at an entry -/

section Product
variable {m k n : Nat} {φ₁ φ₂ : FTy}

/-- In a plain product the left operand's index at the entry (a, b) and contracted coordinate c is (a, c). -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- … and the right operand's is (c, b). -/
theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The kernel's product into the zero accumulator, for dimension numbers that are the plain product's (`hd`: by
    `rfl` for a printed record of those numbers), read at the entry (a, b): the sum over the contracted coordinate. -/
theorem matmul_zero_apply (d : DotDims (⟨2, ![m, k]⟩ : Shape) ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b) = ∑ c : Fin k, A (ix2 a c) * B (ix2 c b) := by
  subst hd
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

/-- The host's product, for dimension numbers that are the plain product's, read at the entry (a, b): the same sum. -/
theorem dotGeneral_apply (d : DotDims (⟨2, ![m, k]⟩ : Shape) ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  show FloatOps.dotGeneral _ prec _ A B (ix2 a b) = _
  rw [Ideal.dotGeneral_apply, ← Equiv.sum_comp (contrEquiv1 (DotDims.plain m k n) k rfl rfl).symm]
  refine Finset.sum_congr rfl fun c _ => ?_
  rw [plain_lhsIdx, plain_rhsIdx]

/-- A ROW BLOCK OF A PRODUCT IS THE PRODUCT OF THE ROW BLOCK. `Xb` holds the `m` rows of `X` from row `o` on
    (`hX`) and `Wb` is `W` entry by entry (`hW`; the operands' formats may differ: at the ideal values a format
    change is the identity): the kernel's product of the block into the zero accumulator at (p, q) is the host's
    product of the whole matrix at (o + p, q). -/
theorem matmul_zero_rowBlock {M : Nat} {φ₃ φ₄ : FTy}
    (d : DotDims (⟨2, ![m, k]⟩ : Shape) ⟨2, ![k, n]⟩ ⟨2, ![m, n]⟩) (hd : d = DotDims.plain m k n)
    (D : DotDims (⟨2, ![M, k]⟩ : Shape) ⟨2, ![k, n]⟩ ⟨2, ![M, n]⟩) (hD : D = DotDims.plain M k n)
    (prec prec' : Option ContractPrecision) (o : Nat)
    (X : FVec Ideal ⟨2, ![M, k]⟩ φ₃) (Xb : FVec Ideal ⟨2, ![m, k]⟩ φ₁) (W : FVec Ideal ⟨2, ![k, n]⟩ φ₄) (Wb : FVec Ideal ⟨2, ![k, n]⟩ φ₂)
    (hX : ∀ (p : Fin m) (c : Fin k) (h : o + p.val < M), Xb (ix2 p c) = X (ix2 ⟨o + p.val, h⟩ c))
    (hW : ∀ (c : Fin k) (q : Fin n), Wb (ix2 c q) = W (ix2 c q))
    (p : Fin m) (q : Fin n) (h : o + p.val < M) :
    matmul d prec Xb Wb (constant (F := Ideal) ⟨2, ![m, n]⟩ .f32 0x00000000#32) (ix2 p q)
      = Host.dotGeneral D prec' X W (ix2 ⟨o + p.val, h⟩ q) := by
  rw [matmul_zero_apply d hd, dotGeneral_apply D hD]
  exact Finset.sum_congr rfl fun c _ => by rw [hX p c h, hW c q]

end Product

/-! ## A vector repeated along rows -/

section Rows
variable {α : Type} {a b : Nat}

/-- The kernel's spelling — the vector given a leading unit axis and broadcast over `a` rows — reads, at (p, q),
    the vector at q. -/
theorem rows_kernel_apply0 (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The same with the vector first cast to its own shape. -/
theorem rows_kernel_apply (v : (⟨1, ![b]⟩ : Shape).Idx → α) (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ v h0) h1) h2 (ix2 p q) = v (ix1 q) := by
  rw [broadcastTo_1b_ab_apply, shapeCast_a_1a_apply, shapeCast_self]

/-- The host's spelling — the vector broadcast into one row, the row broadcast over `a` rows — reads, at (p, q),
    the vector at q. -/
theorem rows_host_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (p : Fin a) (q : Fin b) :
    broadcastInDim ⟨2, ![a, b]⟩ (![0, 1] : Fin 2 → Fin 2) h2 (broadcastInDim ⟨2, ![1, b]⟩ (![1] : Fin 1 → Fin 2) h1 v) (ix2 p q) = v (ix1 q) := by
  rw [broadcastInDim_apply (![0, 1] : Fin 2 → Fin 2) h2 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply (![1] : Fin 1 → Fin 2) h1 v (ix2 (0 : Fin 1) q) (ix1 q) (fun ax => by
    match ax with
    | ⟨0, _⟩ =>
      show q.val = if b = 1 then 0 else q.val
      split
      · have := q.isLt; omega
      · rfl)

end Rows

end Cert.LibRowBlock

end
-- ==== Proof.KBodyValue.lean ====
/-
  The kernel body's output block, entry by entry, at the ideal values.

  For a row y of the block of coordinates, its squared radius is the sum of the squares of its three coordinates
  (`rowSq`).  The body compares it with the four bounds 1, 9/4, 4, 10000 and forms four masks; the mask of filter f
  is set exactly when f is the bucket of the squared radius (`mask0_apply` … `mask3_apply`), so the float weight of
  filter f at the row is 1 on the bucket and 0 elsewhere (`wt`).  Slab f of the packed scratch holds each feature of
  the row times that weight (`packed_apply`), and term f of the bias chain is that weight times the bias row f.
  The matrix product of the packed scratch with the stacked weights is a sum over 1024 = 4 · 256 positions; cut into
  four blocks, only the bucket's block survives, with weight 1, and likewise only the bucket's bias term
  (`bodyOut_apply`).  Nothing here needs the inputs to be finite: zero times anything is zero.
-/
import proofs.«166644_j472446403136_2_alg».proof.Proof.KBody
import proofs.«166644_j472446403136_2_alg».proof.Proof.KRoute
import proofs.«166644_j472446403136_2_alg».proof.Proof.LibColumns
import proofs.«166644_j472446403136_2_alg».proof.Proof.LibRowBlock
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.KVal

open Cert.KernelIdeal Cert.KernelIdeal.Gen Cert.Moe

/-- A row's squared radius, within a block of coordinates. -/
def rowSq (x1 : FVec Ideal S2048x3 .f32) (y : Fin 2048) : EReal := ∑ k : Fin 3, x1 (ix2 y k) * x1 (ix2 y k)

theorem sq_apply (x1 : FVec Ideal S2048x3 .f32) (y : Fin 2048) (u : Fin 1) :
    k0_pay4 (F := Ideal) x1 (ix2 y u) = rowSq x1 y := by
  unfold k0_pay4
  rw [Cert.GcnValue.shapeCast_a_a1_apply]
  refine (Ideal.multiReduction_add_single _ 0x00000000#32 reduces_S2048x3_S2048 (.inl rfl) rfl (ix1 y)).trans ?_
  show ∑ k : Fin 3, _ = ∑ k : Fin 3, _
  refine Finset.sum_congr rfl fun k _ => ?_
  rw [shapeCast_self, mulf_apply]
  have e : reduces_S2048x3_S2048.lift (ix1 y) k = ix2 y k := by
    funext a
    match a with
    | ⟨0, _⟩ => exact Fin.ext rfl
    | ⟨1, _⟩ => exact Fin.ext rfl
  rw [e]

theorem bit_apply (x1 : FVec Ideal S2048x3 .f32) (y : Fin 2048) (u : Fin 1) (w : BitVec 32) :
    cmpf .olt (k0_pay4 (F := Ideal) x1) (broadcast S2048x1 (Scalar.ofBits (F := Ideal) .f32 w)) (ix2 y u)
      = BitVec.ofBool (decide (rowSq x1 y < Ideal.ofBits .f32 w)) := by
  show FloatOps.cmpf .olt (k0_pay4 (F := Ideal) x1 (ix2 y u)) _ = _
  rw [sq_apply]
  rfl

section Masks
variable (x1 : FVec Ideal S2048x3 .f32) (y : Fin 2048) (u : Fin 1)

theorem p6 : k0_pay6 (F := Ideal) x1 (ix2 y u) = BitVec.ofBool (decide (rowSq x1 y < ((1 : ℝ) : EReal))) :=
  (bit_apply x1 y u 0x3F800000#32).trans (by rw [ofBits_one])
theorem p8 : k0_pay8 (F := Ideal) x1 (ix2 y u) = BitVec.ofBool (decide (rowSq x1 y < ((9 / 4 : ℝ) : EReal))) :=
  (bit_apply x1 y u 0x40100000#32).trans (by rw [ofBits_nine_quarters])
theorem p11 : k0_pay11 (F := Ideal) x1 (ix2 y u) = BitVec.ofBool (decide (rowSq x1 y < ((4 : ℝ) : EReal))) :=
  (bit_apply x1 y u 0x40800000#32).trans (by rw [ofBits_four])
theorem p14 : k0_pay14 (F := Ideal) x1 (ix2 y u) = BitVec.ofBool (decide (rowSq x1 y < ((10000 : ℝ) : EReal))) :=
  (bit_apply x1 y u 0x461C4000#32).trans (by rw [ofBits_ten_thousand])

theorem p7 : k0_pay7 (F := Ideal) x1 (ix2 y u) = IntOp.andi 1#1 (IntOp.xori (k0_pay6 (F := Ideal) x1 (ix2 y u)) 1#1) := rfl
theorem p10 : k0_pay10 (F := Ideal) x1 (ix2 y u)
    = IntOp.andi (k0_pay7 (F := Ideal) x1 (ix2 y u)) (IntOp.xori (k0_pay8 (F := Ideal) x1 (ix2 y u)) 1#1) := rfl
theorem p13 : k0_pay13 (F := Ideal) x1 (ix2 y u)
    = IntOp.andi (k0_pay10 (F := Ideal) x1 (ix2 y u)) (IntOp.xori (k0_pay11 (F := Ideal) x1 (ix2 y u)) 1#1) := rfl
theorem p9 : k0_pay9 (F := Ideal) x1 (ix2 y u)
    = IntOp.andi (k0_pay8 (F := Ideal) x1 (ix2 y u)) (k0_pay7 (F := Ideal) x1 (ix2 y u)) := rfl
theorem p12 : k0_pay12 (F := Ideal) x1 (ix2 y u)
    = IntOp.andi (k0_pay11 (F := Ideal) x1 (ix2 y u)) (k0_pay10 (F := Ideal) x1 (ix2 y u)) := rfl
theorem p15 : k0_pay15 (F := Ideal) x1 (ix2 y u)
    = IntOp.andi (k0_pay14 (F := Ideal) x1 (ix2 y u)) (k0_pay13 (F := Ideal) x1 (ix2 y u)) := rfl
theorem p16 : k0_pay16 (F := Ideal) x1 (ix2 y u)
    = IntOp.ori (IntOp.andi (k0_pay6 (F := Ideal) x1 (ix2 y u)) 1#1)
        (IntOp.andi (k0_pay13 (F := Ideal) x1 (ix2 y u)) (IntOp.xori (k0_pay14 (F := Ideal) x1 (ix2 y u)) 1#1)) := rfl

/-- Filter 0's mask at a row: is the row's bucket 0. -/
theorem mask0_apply : k0_pay16 (F := Ideal) x1 (ix2 y u) = BitVec.ofBool (decide (bucket (rowSq x1 y) = 0)) := by
  rw [p16, p13, p10, p7, p6, p8, p11, p14, bucket_eq_firstOf]; exact mask0_eq _ _ _ _
theorem mask1_apply : k0_pay9 (F := Ideal) x1 (ix2 y u) = BitVec.ofBool (decide (bucket (rowSq x1 y) = 1)) := by
  rw [p9, p7, p6, p8, bucket_eq_firstOf]; exact mask1_eq _ _ _ _
theorem mask2_apply : k0_pay12 (F := Ideal) x1 (ix2 y u) = BitVec.ofBool (decide (bucket (rowSq x1 y) = 2)) := by
  rw [p12, p10, p7, p6, p8, p11, bucket_eq_firstOf]; exact mask2_eq _ _ _ _
theorem mask3_apply : k0_pay15 (F := Ideal) x1 (ix2 y u) = BitVec.ofBool (decide (bucket (rowSq x1 y) = 3)) := by
  rw [p15, p13, p10, p7, p6, p8, p11, p14, bucket_eq_firstOf]; exact mask3_eq _ _ _ _

/-- A mask's float weight at a row: 1 on the row's bucket, 0 elsewhere. -/
theorem weight_apply (mk : IVec S2048x1 1) (f : Fin 4) (hm : mk (ix2 y u) = BitVec.ofBool (decide (bucket (rowSq x1 y) = f))) :
    (sitofp (F := Ideal) .f32 (extui 32 mk natLt_1_32)) (ix2 y u) = if bucket (rowSq x1 y) = f then (1 : EReal) else 0 := by
  show ((((mk (ix2 y u)).setWidth 32).toInt : ℝ) : EReal) = _
  rw [hm, weight_ofBool]
  simp only [decide_eq_true_eq]

end Masks

/-- Filter f's float weight at a row: 1 on the row's bucket, 0 elsewhere. -/
def wt (x1 : FVec Ideal S2048x3 .f32) (y : Fin 2048) (f : Fin 4) : EReal := if bucket (rowSq x1 y) = f then 1 else 0

section Slabs
variable (x0 : FVec Ideal S2048x256 .f32) (x1 : FVec Ideal S2048x3 .f32) (y : Fin 2048) (c : Fin 256)

theorem feat_apply : k0_pay3 (F := Ideal) x0 (ix2 y c) = x0 (ix2 y c) := by
  unfold k0_pay3; rw [truncf_apply, shapeCast_self]

/-- A masked block of features at an entry: the feature times the row's weight for the mask's filter. -/
theorem masked_apply (v2 : FVec Ideal S2048x256 .bf16) (mk : IVec S2048x1 1) (f : Fin 4)
    (hm : mk (ix2 y (0 : Fin 1)) = BitVec.ofBool (decide (bucket (rowSq x1 y) = f))) :
    mulf v2 (broadcastTo S2048x256 (truncf .bf16 (sitofp (F := Ideal) .f32 (extui 32 mk natLt_1_32)) bitsLt_bf16_f32)
      broadcasts_S2048x1_S2048x256) (ix2 y c) = v2 (ix2 y c) * wt x1 y f := by
  rw [mulf_apply, Cert.GcnValue.broadcastTo_a1_ab_apply, truncf_apply, weight_apply x1 y 0 mk f hm]
  rfl

theorem slab0_apply : k0_pay18 (F := Ideal) x0 x1 (ix2 y c) = x0 (ix2 y c) * wt x1 y 0 := by
  unfold k0_pay18
  rw [shapeCast_self, masked_apply x1 y c _ _ 0 (mask0_apply x1 y 0), feat_apply]
theorem slab1_apply : k0_pay20 (F := Ideal) (k0_pay3 (F := Ideal) x0) (k0_pay9 (F := Ideal) x1) (ix2 y c) = x0 (ix2 y c) * wt x1 y 1 := by
  unfold k0_pay20
  rw [shapeCast_self, masked_apply x1 y c _ _ 1 (mask1_apply x1 y 0), feat_apply]
theorem slab2_apply : k0_pay21 (F := Ideal) (k0_pay3 (F := Ideal) x0) (k0_pay12 (F := Ideal) x1) (ix2 y c) = x0 (ix2 y c) * wt x1 y 2 := by
  unfold k0_pay21
  rw [shapeCast_self, masked_apply x1 y c _ _ 2 (mask2_apply x1 y 0), feat_apply]
theorem slab3_apply : k0_pay1 (F := Ideal) (k0_pay23 (F := Ideal) (k0_pay3 (F := Ideal) x0) (k0_pay15 (F := Ideal) x1)) (ix2 y c) = x0 (ix2 y c) * wt x1 y 3 := by
  unfold k0_pay1 k0_pay23
  rw [shapeCast_self, masked_apply x1 y c _ _ 3 (mask3_apply x1 y 0), feat_apply]

end Slabs

section Packed
variable (x0 : FVec Ideal S2048x256 .f32) (x1 : FVec Ideal S2048x3 .f32) (y : Fin 2048) (c : Fin 256)

theorem packed_eq : packed (F := Ideal) x0 x1 = View.canon (slabs (F := Ideal) x0 x1) :=
  View.ld_unit_zero (S := S2048x1024) hz inb_S2048x1024_S2048x1024_0_0 (View.canon (slabs (F := Ideal) x0 x1))

/-- Entry (y, c) of a slab stored at column offset `o` sits at entry (y, o + c) of the scratch. -/
theorem col_emb (o : Nat) (inb : ∀ a, (![0, o] : Fin 2 → Nat) a + S2048x256.size a ≤ S2048x1024.size a) (h : o + c.val < 1024) :
    (Rect.unit (s := S2048x1024) ![0, o] S2048x256.size inb).emb (ix2 y c) = ix2 y (⟨o + c.val, h⟩ : Fin 1024) := by
  funext a; apply Fin.ext
  match a with
  | ⟨0, _⟩ => show 0 + 1 * y.val = y.val; omega
  | ⟨1, _⟩ => show o + 1 * c.val = o + c.val; omega

/-- An entry whose column lies left of a slab's first column is outside the slab. -/
theorem col_not_mem (o : Nat) (inb : ∀ a, (![0, o] : Fin 2 → Nat) a + S2048x256.size a ≤ S2048x1024.size a) (k : Fin 1024)
    (h : k.val < o) : ix2 y k ∉ (Rect.unit (s := S2048x1024) ![0, o] S2048x256.size inb).set := by
  rw [Rect.mem_set_unit]
  intro hh
  have h1 := (hh 1).1
  change o ≤ k.val at h1
  omega

/-- So the canon of a list whose last-stored slab starts right of the entry's column is the canon of the rest. -/
theorem canon_skip (o : Nat) (inb : ∀ a, (![0, o] : Fin 2 → Nat) a + S2048x256.size a ≤ S2048x1024.size a)
    (w : S2048x256.Idx → EReal) (L : List (View.Piece (Elt Ideal) S2048x1024 .bf16)) (k : Fin 1024) (h : k.val < o) :
    View.canon ((⟨Rect.unit (s := S2048x1024) ![0, o] S2048x256.size inb, w⟩ : View.Piece (Elt Ideal) S2048x1024 .bf16) :: L) (ix2 y k)
      = View.canon L (ix2 y k) :=
  View.canon_cons_of_not_mem (⟨Rect.unit (s := S2048x1024) ![0, o] S2048x256.size inb, w⟩ : View.Piece (Elt Ideal) S2048x1024 .bf16) L
    (col_not_mem y o inb k h)

theorem packed3 : packed (F := Ideal) x0 x1 (ix2 y (⟨768 + c.val, by omega⟩ : Fin 1024)) = x0 (ix2 y c) * wt x1 y 3 := by
  rw [packed_eq, ← col_emb y c 768 inb_S2048x1024_S2048x256_0_768]
  unfold slabs
  rw [View.canon_cons_emb, slab3_apply]
theorem packed2 : packed (F := Ideal) x0 x1 (ix2 y (⟨512 + c.val, by omega⟩ : Fin 1024)) = x0 (ix2 y c) * wt x1 y 2 := by
  rw [packed_eq]
  unfold slabs
  rw [canon_skip y 768 inb_S2048x1024_S2048x256_0_768 _ _ (⟨512 + c.val, by omega⟩ : Fin 1024) (by show 512 + c.val < 768; omega),
    ← col_emb y c 512 inb_S2048x1024_S2048x256_0_512, View.canon_cons_emb, slab2_apply]
theorem packed1 : packed (F := Ideal) x0 x1 (ix2 y (⟨256 + c.val, by omega⟩ : Fin 1024)) = x0 (ix2 y c) * wt x1 y 1 := by
  rw [packed_eq]
  unfold slabs
  rw [canon_skip y 768 inb_S2048x1024_S2048x256_0_768 _ _ (⟨256 + c.val, by omega⟩ : Fin 1024) (by show 256 + c.val < 768; omega),
    canon_skip y 512 inb_S2048x1024_S2048x256_0_512 _ _ (⟨256 + c.val, by omega⟩ : Fin 1024) (by show 256 + c.val < 512; omega),
    ← col_emb y c 256 inb_S2048x1024_S2048x256_0_256, View.canon_cons_emb, slab1_apply]
theorem packed0 : packed (F := Ideal) x0 x1 (ix2 y (⟨0 + c.val, by omega⟩ : Fin 1024)) = x0 (ix2 y c) * wt x1 y 0 := by
  rw [packed_eq]
  unfold slabs
  rw [canon_skip y 768 inb_S2048x1024_S2048x256_0_768 _ _ (⟨0 + c.val, by omega⟩ : Fin 1024) (by show 0 + c.val < 768; omega),
    canon_skip y 512 inb_S2048x1024_S2048x256_0_512 _ _ (⟨0 + c.val, by omega⟩ : Fin 1024) (by show 0 + c.val < 512; omega),
    canon_skip y 256 inb_S2048x1024_S2048x256_0_256 _ _ (⟨0 + c.val, by omega⟩ : Fin 1024) (by show 0 + c.val < 256; omega),
    ← col_emb y c 0 inb_S2048x1024_S2048x256_0_0, View.canon_cons_emb, slab0_apply]

/-- The packed scratch at row y, column 256 f + c: the feature (y, c) times the row's weight for filter f. -/
theorem packed_apply (f : Fin 4) :
    packed (F := Ideal) x0 x1 (ix2 y (⟨c.val + 256 * f.val, by omega⟩ : Fin 1024)) = x0 (ix2 y c) * wt x1 y f := by
  have e : ∀ (k : Nat) (hk : k < 1024) (hk' : c.val + 256 * f.val = k),
      packed (F := Ideal) x0 x1 (ix2 y (⟨c.val + 256 * f.val, by omega⟩ : Fin 1024)) = packed (F := Ideal) x0 x1 (ix2 y (⟨k, hk⟩ : Fin 1024)) :=
    fun k hk hk' => by subst hk'; rfl
  fin_cases f
  · exact (e (0 + c.val) (by omega) (by simp)).trans (packed0 x0 x1 y c)
  · exact (e (256 + c.val) (by omega) (by simp; omega)).trans (packed1 x0 x1 y c)
  · exact (e (512 + c.val) (by omega) (by simp; omega)).trans (packed2 x0 x1 y c)
  · exact (e (768 + c.val) (by omega) (by simp; omega)).trans (packed3 x0 x1 y c)

end Packed

section Bias
variable (x1 : FVec Ideal S2048x3 .f32) (x3 : FVec Ideal S4x512 .f32) (y : Fin 2048) (o : Fin 512)

/-- Row r of the bias table, loaded as a [1, 512] vector, read at column o. -/
theorem biasRow_apply (r : Nat) (hr : r < 4) (inb : ∀ a, (![r, 0] : Fin 2 → Nat) a + S1x512.size a ≤ S4x512.size a) (u : Fin 1) :
    View.ld (Val := Elt Ideal) (e' := .f32) x3 (Rect.unit (s := S4x512) ![r, 0] S1x512.size inb) (ix2 u o) = x3 (ix2 (⟨r, hr⟩ : Fin 4) o) := by
  show x3 ((Rect.unit (s := S4x512) ![r, 0] S1x512.size inb).emb (ix2 u o)) = _
  congr 1
  funext a; apply Fin.ext
  match a with
  | ⟨0, _⟩ => show r + 1 * u.val = r; have := u.isLt; omega
  | ⟨1, _⟩ => show 0 + 1 * o.val = o.val; omega

/-- One term of the bias chain at an entry: the row's weight for the mask's filter times the bias row's entry. -/
theorem biasTerm_apply (mk : IVec S2048x1 1) (f : Fin 4)
    (hm : mk (ix2 y (0 : Fin 1)) = BitVec.ofBool (decide (bucket (rowSq x1 y) = f))) (row : FVec Ideal S1x512 .f32) :
    mulf (broadcastTo S2048x512 (sitofp (F := Ideal) .f32 (extui 32 mk natLt_1_32)) broadcasts_S2048x1_S2048x512)
      (broadcastTo S2048x512 (shapeCast S1x512 (shapeCast S512 row shapeCasts_S1x512_S512) shapeCasts_S512_S1x512)
        broadcasts_S1x512_S2048x512) (ix2 y o)
      = wt x1 y f * row (ix2 (0 : Fin 1) o) := by
  rw [mulf_apply, Cert.GcnValue.broadcastTo_a1_ab_apply, weight_apply x1 y 0 mk f hm, broadcastTo_1b_ab_apply, shapeCast_shapeCast]
  rfl

end Bias

/-- The body's output block at row y, channel o: the row's features dotted with the routed filter's rows of the
    stacked weights, plus the routed filter's bias. -/
theorem bodyOut_apply (x0 : FVec Ideal S2048x256 .f32) (x1 : FVec Ideal S2048x3 .f32) (x2 : FVec Ideal S1024x512 .bf16)
    (x3 : FVec Ideal S4x512 .f32) (y : Fin 2048) (o : Fin 512) :
    bodyOut (F := Ideal) x0 x1 x2 x3 (ix2 y o)
      = (∑ c : Fin 256, x0 (ix2 y c) * x2 (ix2 (⟨c.val + 256 * (bucket (rowSq x1 y)).val, by omega⟩ : Fin 1024) o))
        + x3 (ix2 (bucket (rowSq x1 y)) o) := by
  unfold bodyOut k0_pay2 k0_pay22 k0_pay19 k0_pay17
  rw [addf_apply, addf_apply, addf_apply, addf_apply, addf_apply,
    biasTerm_apply x1 y o _ 3 (mask3_apply x1 y 0), biasTerm_apply x1 y o _ 2 (mask2_apply x1 y 0),
    biasTerm_apply x1 y o _ 1 (mask1_apply x1 y 0), biasTerm_apply x1 y o _ 0 (mask0_apply x1 y 0),
    biasRow_apply x3 o 0 (by omega), biasRow_apply x3 o 1 (by omega), biasRow_apply x3 o 2 (by omega), biasRow_apply x3 o 3 (by omega),
    Cert.LibRowBlock.matmul_zero_apply (φ₁ := .bf16) (φ₂ := .bf16) dot_S2048x1024_S1024x512_S2048x512_1_0_0_1_n_n rfl none
      (packed (F := Ideal) x0 x1) (shapeCast S1024x512 x2 shapeCasts_S1024x512_S1024x512) y o, shapeCast_self]
  rw [show broadcast S2048x512 (FloatOps.ofBits (F := Ideal) .f32 0#32) (ix2 y o) = (0 : EReal) from ofBits_zero]
  refine congrArg₂ (· + ·) ?_ ?_
  · rw [sum_four_blocks]
    simp only [packed_apply]
    unfold wt
    exact routed_sum (bucket (rowSq x1 y)) (fun c => x0 (ix2 y c))
      (fun f c => x2 (ix2 (⟨c.val + 256 * f.val, by omega⟩ : Fin 1024) o))
  · unfold wt
    exact routed_bias (bucket (rowSq x1 y)) (fun f => x3 (ix2 f o))

end Cert.KernelIdeal.KVal
end
-- ==== Proof.KHost.lean ====
/-
  The kernel program's host operations around its one region, read at an index over the extended reals.

  Before the region: the features and the coordinates are re-laid from [16, 4096, ·] to [65536, ·] (row-major: point
  (b, n) becomes row b * 4096 + n); the weights [4, 512, 256] are transposed to [4, 256, 512], changed of format (the
  identity on extended reals) and re-laid as [1024, 512] (filter f, feature c becomes row c + 256 * f).  After the
  region: its result [65536, 512] is re-laid as [16, 4096, 512].
-/
import proofs.«166644_j472446403136_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.KHost

open Idealize.ShloMosaic Idealize.ShloMosaic.TcCoe Idealize.SL.Sem Idealize.ShloMosaic.ValueIdx Cert.KernelIdeal
  Cert.KernelIdeal.Gen

variable (m : (ℓ : Loc nD τ sig) → Buf (Elt Ideal) ℓ)

/-- The features as the region finds them: the launched array re-laid as [65536, 256]. -/
theorem V_v0_eq (c : Dev nD) :
    (V m c main_v0 : S65536x256.Idx → EReal)
      = shapeCast S65536x256 (m ((c : Thread nD τ).loc main_arg0) : S16x4096x256.Idx → EReal)
          shapeCasts_S16x4096x256_S65536x256 := by
  show StableHlo.after hostOps0 (fun b => m (c, b)) (Proc.devRef .tc main_v0) = _
  after_results
  rfl

theorem V_v0_apply (c : Dev nD) (b : Fin 16) (n : Fin 4096) (k : Fin 256) :
    (V m c main_v0 : S65536x256.Idx → EReal) (ix2 (⟨b.val * 4096 + n.val, by omega⟩ : Fin 65536) k)
      = (m ((c : Thread nD τ).loc main_arg0) : S16x4096x256.Idx → EReal) (ix3 b n k) := by
  rw [V_v0_eq]
  exact shapeCast_apply _ _ _ (ix3 b n k) (by
    rw [Shape.rowMajor_val_three, Shape.rowMajor_val_two]
    show (b.val * 4096 + n.val) * 256 + k.val = (b.val * 4096 + n.val) * 256 + k.val
    rfl)

/-- The coordinates as the region finds them: the launched array re-laid as [65536, 3]. -/
theorem V_v1_eq (c : Dev nD) :
    (V m c main_v1 : S65536x3.Idx → EReal)
      = shapeCast S65536x3 (m ((c : Thread nD τ).loc main_arg1) : S16x4096x3.Idx → EReal)
          shapeCasts_S16x4096x3_S65536x3 := by
  show StableHlo.after hostOps0 (fun b => m (c, b)) (Proc.devRef .tc main_v1) = _
  after_results
  rfl

theorem V_v1_apply (c : Dev nD) (b : Fin 16) (n : Fin 4096) (k : Fin 3) :
    (V m c main_v1 : S65536x3.Idx → EReal) (ix2 (⟨b.val * 4096 + n.val, by omega⟩ : Fin 65536) k)
      = (m ((c : Thread nD τ).loc main_arg1) : S16x4096x3.Idx → EReal) (ix3 b n k) := by
  rw [V_v1_eq]
  exact shapeCast_apply _ _ _ (ix3 b n k) (by
    rw [Shape.rowMajor_val_three, Shape.rowMajor_val_two]
    show (b.val * 4096 + n.val) * 3 + k.val = (b.val * 4096 + n.val) * 3 + k.val
    rfl)

/-- The weights as the region finds them: the launched array transposed to [4, 256, 512], its format changed, re-laid
    as [1024, 512]. -/
theorem V_v4_eq (c : Dev nD) :
    (V m c main_v4 : S1024x512.Idx → EReal)
      = shapeCast S1024x512
          (truncf (F := Ideal) .bf16
            (transpose S4x256x512 [0, 2, 1] (m ((c : Thread nD τ).loc main_arg2) : S4x512x256.Idx → EReal)
              transposes_S4x512x256_S4x256x512_0_2_1)
            bitsLt_bf16_f32)
          shapeCasts_S4x256x512_S1024x512 := by
  show StableHlo.after hostOps0 (fun b => m (c, b)) (Proc.devRef .tc main_v4) = _
  after_results
  rfl

theorem V_v4_apply (c : Dev nD) (f : Fin 4) (cc : Fin 256) (o : Fin 512) :
    (V m c main_v4 : S1024x512.Idx → EReal) (ix2 (⟨cc.val + 256 * f.val, by omega⟩ : Fin 1024) o)
      = (m ((c : Thread nD τ).loc main_arg2) : S4x512x256.Idx → EReal) (ix3 f o cc) := by
  rw [V_v4_eq]
  refine (shapeCast_apply _ _ _ (ix3 f cc o) (by
    rw [Shape.rowMajor_val_three, Shape.rowMajor_val_two]
    show (f.val * 256 + cc.val) * 512 + o.val = (cc.val + 256 * f.val) * 512 + o.val
    omega)).trans ?_
  rw [truncf_apply]
  exact transpose_ix3_021_apply _ _ f cc o

/-- The program's result: the region's result array re-laid as [16, 4096, 512]. -/
theorem tail_v6_eq (c : Dev nD) :
    (Pipeline.afterTail₀ cfgs (dats m) 0 (V0 m) [hostOps1] c main_v6 : S16x4096x512.Idx → EReal)
      = shapeCast S16x4096x512 ((dats m 0 c).arrAt 4 cfg0.N : S65536x512.Idx → EReal)
          shapeCasts_S65536x512_S16x4096x512 := by
  unfold Pipeline.afterTail₀
  show StableHlo.after hostOps1 _ (Proc.devRef .tc main_v6) = _
  after_results
  rw [Pipeline.withArrays_arr spec0 launch0.win.arr_inj c _ _ 4]
  rfl

theorem tail_v6_apply (c : Dev nD) (b : Fin 16) (n : Fin 4096) (o : Fin 512) :
    (Pipeline.afterTail₀ cfgs (dats m) 0 (V0 m) [hostOps1] c main_v6 : S16x4096x512.Idx → EReal) (ix3 b n o)
      = ((dats m 0 c).arrAt 4 cfg0.N : S65536x512.Idx → EReal)
          (ix2 (⟨b.val * 4096 + n.val, by omega⟩ : Fin 65536) o) := by
  rw [tail_v6_eq]
  exact shapeCast_apply _ _ _ (ix2 (⟨b.val * 4096 + n.val, by omega⟩ : Fin 65536) o) (by
    rw [Shape.rowMajor_val_three, Shape.rowMajor_val_two]
    show (b.val * 4096 + n.val) * 512 + o.val = (b.val * 4096 + n.val) * 512 + o.val
    rfl)

end Cert.KernelIdeal.KHost

end
-- ==== Proof.KBlocks.lean ====
/-
  The geometry of the kernel's one pipeline: what each window's block at a grid point reads, and that the output
  window's blocks cover the output array.

  The grid has 32 points.  Windows 0, 1 and 4 (the feature array [65536, 256], the coordinate array [65536, 3] and
  the output array [65536, 512]) take a block of 2048 rows per point, block `t` being rows `t * 2048 … t * 2048 + 2047`;
  windows 2 and 3 (the weight array [1024, 512] and the bias array [4, 512]) take their whole array at every point.
  A block's element `(y, k)` sits in the array at `(index × block rows + y, k)`, so with the index maps decided once
  over the grid each block read is the array read at `(t * 2048 + y, k)`, or at `(y, k)` itself for a whole-array
  window.  Every row `r` of the output array lies in the block of point `r / 2048`, and every point writes its block
  back; so if each point writes back its block of one array, the output array ends holding that array.
-/
import proofs.«166644_j472446403136_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KBlocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Row `y` of the block of 2048 rows at grid point `t`, as a row of the array of 65536 rows. -/
abbrev row (t : Fin cfg0.N) (y : Fin 2048) : Fin 65536 :=
  ⟨t.val * 2048 + y.val, by
    have hN : cfg0.N = 32 := N_0
    have ht := t.isLt
    have hy := y.isLt
    omega⟩

/-! ## The index maps, decided once over the grid -/

/-- Windows 0, 1 and 4 move down their arrays one block of rows per grid point; windows 2 and 3 stay at the one block
    that is their whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What each input window's block reads -/

/-- Window 0's block at `t`: rows `t * 2048 …` of the feature array. -/
theorem iblk0_apply (c : Dev nD) (t : Fin cfg0.N) (y : Fin 2048) (k : Fin 256) :
    (iblk m c 0 t : S2048x256.Idx → EReal) (ix2 y k) = (V m c main_v0 : S65536x256.Idx → EReal) (ix2 (row t y) k) := by
  obtain ⟨e0, e1, -⟩ := idx_facts t
  unfold iblk
  rw [View.read_apply]
  show V m c main_v0 (((cfg0.win 0).blk t).view.emb (ix2 y k)) = V m c main_v0 (ix2 (row t y) k)
  congr 1
  funext a
  apply Fin.ext
  match a with
  | ⟨0, _⟩ => show win0_0.index t (0 : Fin 2) * 2048 + 1 * y.val = t.val * 2048 + y.val; rw [e0]; omega
  | ⟨1, _⟩ => show win0_0.index t (1 : Fin 2) * 256 + 1 * k.val = k.val; rw [e1]; omega

/-- Window 1's block at `t`: rows `t * 2048 …` of the coordinate array. -/
theorem iblk1_apply (c : Dev nD) (t : Fin cfg0.N) (y : Fin 2048) (k : Fin 3) :
    (iblk m c 1 t : S2048x3.Idx → EReal) (ix2 y k) = (V m c main_v1 : S65536x3.Idx → EReal) (ix2 (row t y) k) := by
  obtain ⟨-, -, e0, e1, -⟩ := idx_facts t
  unfold iblk
  rw [View.read_apply]
  show V m c main_v1 (((cfg0.win 1).blk t).view.emb (ix2 y k)) = V m c main_v1 (ix2 (row t y) k)
  congr 1
  funext a
  apply Fin.ext
  match a with
  | ⟨0, _⟩ => show win0_1.index t (0 : Fin 2) * 2048 + 1 * y.val = t.val * 2048 + y.val; rw [e0]; omega
  | ⟨1, _⟩ => show win0_1.index t (1 : Fin 2) * 3 + 1 * k.val = k.val; rw [e1]; omega

/-- Window 2's block at every point is the whole weight array. -/
theorem iblk2_apply (c : Dev nD) (t : Fin cfg0.N) (k : Fin 1024) (o : Fin 512) :
    (iblk m c 2 t : S1024x512.Idx → EReal) (ix2 k o) = (V m c main_v4 : S1024x512.Idx → EReal) (ix2 k o) := by
  obtain ⟨-, -, -, -, e0, e1, -⟩ := idx_facts t
  unfold iblk
  rw [View.read_apply]
  show V m c main_v4 (((cfg0.win 2).blk t).view.emb (ix2 k o)) = V m c main_v4 (ix2 k o)
  congr 1
  funext a
  apply Fin.ext
  match a with
  | ⟨0, _⟩ => show win0_2.index t (0 : Fin 2) * 1024 + 1 * k.val = k.val; rw [e0]; omega
  | ⟨1, _⟩ => show win0_2.index t (1 : Fin 2) * 512 + 1 * o.val = o.val; rw [e1]; omega

/-- Window 3's block at every point is the whole bias array. -/
theorem iblk3_apply (c : Dev nD) (t : Fin cfg0.N) (f : Fin 4) (o : Fin 512) :
    (iblk m c 3 t : S4x512.Idx → EReal) (ix2 f o) = (V m c main_arg3 : S4x512.Idx → EReal) (ix2 f o) := by
  obtain ⟨-, -, -, -, -, -, e0, e1, -⟩ := idx_facts t
  unfold iblk
  rw [View.read_apply]
  show V m c main_arg3 (((cfg0.win 3).blk t).view.emb (ix2 f o)) = V m c main_arg3 (ix2 f o)
  congr 1
  funext a
  apply Fin.ext
  match a with
  | ⟨0, _⟩ => show win0_3.index t (0 : Fin 2) * 4 + 1 * f.val = f.val; rw [e0]; omega
  | ⟨1, _⟩ => show win0_3.index t (1 : Fin 2) * 512 + 1 * o.val = o.val; rw [e1]; omega

/-! ## The output window: what its block reads, and that the blocks cover the array -/

/-- An array of the output's shape read through the output window's block at `t`: rows `t * 2048 …`. -/
theorem oblk_read (c : Dev nD) (t : Fin cfg0.N) (G5 : S65536x512.Idx → EReal) (y : Fin 2048) (o : Fin 512) :
    (((cfg0.win 4).blk t).view.read (Elt Ideal) G5 : S2048x512.Idx → EReal) (ix2 y o) = G5 (ix2 (row t y) o) := by
  obtain ⟨-, -, -, -, -, -, -, -, e0, e1⟩ := idx_facts t
  rw [View.read_apply]
  show G5 (((cfg0.win 4).blk t).view.emb (ix2 y o)) = G5 (ix2 (row t y) o)
  congr 1
  funext a
  apply Fin.ext
  match a with
  | ⟨0, _⟩ => show win0_4.index t (0 : Fin 2) * 2048 + 1 * y.val = t.val * 2048 + y.val; rw [e0]; omega
  | ⟨1, _⟩ => show win0_4.index t (1 : Fin 2) * 512 + 1 * o.val = o.val; rw [e1]; omega

/-- An index of the output array lies in point `t`'s block exactly when each coordinate lies in the block's range on
    its axis. -/
theorem mem_blk4 (t : Fin cfg0.N) (i : S65536x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v5).slice (win0_4.rect t)).set ↔ _
  rw [View.set_slice_whole, Rect.mem_set_unit]
  exact Iff.rfl

/-- Every index of the output array lies in the block of the point its row falls under, and every point writes its
    block back. -/
theorem cover4 (i : S65536x512.Idx) :
    ∃ t : Fin cfg0.N, (cfg0.win 4).flush t = true ∧ i ∈ ((cfg0.win 4).blk t).view.set := by
  have hN : cfg0.N = 32 := N_0
  have hi0 : (i 0).val < 65536 := (i 0).isLt
  have hi1 : (i 1).val < 512 := (i 1).isLt
  have ht : (i 0).val / 2048 < cfg0.N := by rw [hN]; omega
  obtain ⟨-, -, -, -, -, -, -, -, e0, e1⟩ := idx_facts ⟨(i 0).val / 2048, ht⟩
  refine ⟨⟨(i 0).val / 2048, ht⟩, flush0_4 _, ?_⟩
  rw [mem_blk4]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_4.index ⟨(i 0).val / 2048, ht⟩ (1 : Fin 2) * 512 ≤ (i 1).val
      ∧ (i 1).val < win0_4.index ⟨(i 0).val / 2048, ht⟩ (1 : Fin 2) * 512 + 512
    rw [e1]
    omega

/-- If what every point writes back is its block of one array `G5`, the output array ends holding `G5`. -/
theorem final_of_flushed (c : Dev nD) (G5 : S65536x512.Idx → EReal)
    (hfl : ∀ t : Fin cfg0.N, (dats m 0 c).flushed 4 t = ((cfg0.win 4).blk t).view.read (Elt Ideal) G5) :
    (dats m 0 c).arrAt 4 cfg0.N = G5 :=
  (dats m 0 c).arrAt_eq_of_cover 4 G5 (fun t _ => hfl t) cover4

end Cert.KernelIdeal.KBlocks

end
-- ==== Proof.KFinal.lean ====
/-
  The kernel program's run with its result named.

  The region's result array [65536, 512] ends holding, at row `p` and channel `o`: with `f` the filter that the squared
  radius of row `p` of the coordinate array selects, the dot product of row `p` of the feature array with rows
  `256 f … 256 f + 255` of column `o` of the stacked weight array, plus the bias of filter `f` for channel `o`.  Every
  grid point writes back its block of that array: the body's output block at a row is that value of the four input
  blocks, and the input blocks are the window arrays at the point's rows.  The blocks cover the array, so it ends
  holding it.  Re-laid through the host operations around the region (point `(b, n)` is row `b * 4096 + n`; filter
  `f`, feature `c` of the launched weights is row `c + 256 f` of the stacked ones) it is the common specification of
  the four launched arrays, which the run leaves unchanged.
-/
import proofs.«166644_j472446403136_2_alg».proof.Proof.Spec
import proofs.«166644_j472446403136_2_alg».proof.Proof.KBody
import proofs.«166644_j472446403136_2_alg».proof.Proof.KBodyValue
import proofs.«166644_j472446403136_2_alg».proof.Proof.KHost
import proofs.«166644_j472446403136_2_alg».proof.Proof.KBlocks
import Idealize.ShloMosaic.Lib.Pipeline.Value
import Idealize.ShloMosaic.Lib.ValueIdx
import Idealize.ShloMosaic.Lib.Tactic

noncomputable section

open scoped BigOperators

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The specification over the four window arrays -/

/-- A row's squared radius: the sum of the squares of its three coordinates. -/
def sqAt (Z : S65536x3.Idx → EReal) (p : Fin 65536) : EReal := ∑ k : Fin 3, Z (ix2 p k) * Z (ix2 p k)

/-- The value a row takes through filter `f`: its features `a` dotted with the filter's slab of the stacked weight
    column `w` (feature `c` of filter `f` at row `c + 256 f`), plus the filter's bias `b f`. -/
def rowVal (a : Fin 256 → EReal) (w : Fin 1024 → EReal) (b : Fin 4 → EReal) (f : Fin 4) : EReal :=
  (∑ c : Fin 256, a c * w (⟨c.val + 256 * f.val, by omega⟩ : Fin 1024)) + b f

/-- The result at row `p` and channel `o`, from the features `X`, the coordinates `Z`, the stacked weights `Wst` and the
    biases `B`: the filter is the one the row's squared radius selects, and the value is the row's features dotted
    with that filter's weight column for the channel, plus its bias. -/
def G5at (X : S65536x256.Idx → EReal) (Z : S65536x3.Idx → EReal) (Wst : S1024x512.Idx → EReal) (B : S4x512.Idx → EReal)
    (p : Fin 65536) (o : Fin 512) : EReal :=
  (∑ c : Fin 256, X (ix2 p c)
      * Wst (ix2 (⟨c.val + 256 * (Cert.Moe.bucket (∑ k : Fin 3, Z (ix2 p k) * Z (ix2 p k))).val, by omega⟩ : Fin 1024) o))
    + B (ix2 (Cert.Moe.bucket (∑ k : Fin 3, Z (ix2 p k) * Z (ix2 p k))) o)

theorem G5at_eq_rowVal (X : S65536x256.Idx → EReal) (Z : S65536x3.Idx → EReal) (Wst : S1024x512.Idx → EReal)
    (B : S4x512.Idx → EReal) (p : Fin 65536) (o : Fin 512) :
    G5at X Z Wst B p o
      = rowVal (fun c => X (ix2 p c)) (fun r => Wst (ix2 r o)) (fun f => B (ix2 f o)) (Cert.Moe.bucket (sqAt Z p)) := rfl

/-- The whole array. -/
def G5 (X : S65536x256.Idx → EReal) (Z : S65536x3.Idx → EReal) (Wst : S1024x512.Idx → EReal) (B : S4x512.Idx → EReal) :
    S65536x512.Idx → EReal :=
  fun j => G5at X Z Wst B (j 0) (j 1)

theorem G5_apply (X : S65536x256.Idx → EReal) (Z : S65536x3.Idx → EReal) (Wst : S1024x512.Idx → EReal)
    (B : S4x512.Idx → EReal) (p : Fin 65536) (o : Fin 512) : G5 X Z Wst B (ix2 p o) = G5at X Z Wst B p o := rfl

/-! ## What every grid point writes back -/

/-- Point `t` writes back block `t` of the specification over the window arrays as the region finds them. -/
theorem flushed_eq (c : Dev nD) (t : Fin cfg0.N) :
    (dats m 0 c).flushed 4 t
      = ((cfg0.win 4).blk t).view.read (Elt Ideal) (G5 (V m c main_v0) (V m c main_v1) (V m c main_v4) (V m c main_arg3)) := by
  show (cfg0.win 4).cut (grid0.coords t) ((dats m 0 c).after 4 t) = _
  rw [after0_4]
  unfold outsAt0
  rw [KVal.out_A]
  funext j
  obtain ⟨y, o, rfl⟩ : ∃ (y : Fin 2048) (o : Fin 512), j = ix2 y o := ⟨j 0, j 1, eq_ix2 j⟩
  show KVal.bodyOut (F := Ideal) (iblk m c 0 t) (iblk m c 1 t) (iblk m c 2 t) (iblk m c 3 t) (ix2 y o)
    = (((cfg0.win 4).blk t).view.read (Elt Ideal)
        (G5 (V m c main_v0) (V m c main_v1) (V m c main_v4) (V m c main_arg3)) : S2048x512.Idx → EReal) (ix2 y o)
  rw [KBlocks.oblk_read c t _ y o, KVal.bodyOut_apply, G5_apply, G5at_eq_rowVal]
  have hsq : KVal.rowSq (iblk m c 1 t) y = sqAt (V m c main_v1) (KBlocks.row t y) :=
    Finset.sum_congr rfl fun k _ => by rw [KBlocks.iblk1_apply]
  have ha : (fun k : Fin 256 => (iblk m c 0 t : S2048x256.Idx → EReal) (ix2 y k))
      = fun k => (V m c main_v0 : S65536x256.Idx → EReal) (ix2 (KBlocks.row t y) k) :=
    funext fun k => KBlocks.iblk0_apply m c t y k
  have hw : (fun r : Fin 1024 => (iblk m c 2 t : S1024x512.Idx → EReal) (ix2 r o))
      = fun r => (V m c main_v4 : S1024x512.Idx → EReal) (ix2 r o) :=
    funext fun r => KBlocks.iblk2_apply m c t r o
  have hb : (fun f : Fin 4 => (iblk m c 3 t : S4x512.Idx → EReal) (ix2 f o))
      = fun f => (V m c main_arg3 : S4x512.Idx → EReal) (ix2 f o) :=
    funext fun f => KBlocks.iblk3_apply m c t f o
  show rowVal (fun k : Fin 256 => (iblk m c 0 t : S2048x256.Idx → EReal) (ix2 y k))
      (fun r : Fin 1024 => (iblk m c 2 t : S1024x512.Idx → EReal) (ix2 r o))
      (fun f : Fin 4 => (iblk m c 3 t : S4x512.Idx → EReal) (ix2 f o)) (Cert.Moe.bucket (KVal.rowSq (iblk m c 1 t) y)) = _
  rw [ha, hw, hb, hsq]

/-- So the region's result array ends holding the specification over the window arrays. -/
theorem final (c : Dev nD) :
    (dats m 0 c).arrAt 4 cfg0.N = G5 (V m c main_v0) (V m c main_v1) (V m c main_v4) (V m c main_arg3) :=
  KBlocks.final_of_flushed m c _ (flushed_eq m c)

/-! ## The program's result -/

/-- The result array after the run's last re-laying is the common specification of the four launched arrays. -/
theorem result_eq (c : Dev nD) :
    Pipeline.afterTail₀ cfgs (dats m) 0 (V0 m) [hostOps1] c main_v6
      = Cert.Moe.G (m ((c : Thread nD τ).loc main_arg0)) (m ((c : Thread nD τ).loc main_arg1))
          (m ((c : Thread nD τ).loc main_arg2)) (m ((c : Thread nD τ).loc main_arg3)) := by
  funext j
  obtain ⟨b, n, o, rfl⟩ : ∃ (b : Fin 16) (n : Fin 4096) (o : Fin 512), j = ix3 b n o := ⟨j 0, j 1, j 2, eq_ix3 j⟩
  rw [KHost.tail_v6_apply, final, G5_apply, G5at_eq_rowVal, Cert.Moe.G_apply]
  have hsq : sqAt (V m c main_v1) (⟨b.val * 4096 + n.val, by omega⟩ : Fin 65536)
      = Cert.Moe.sqRadius (m ((c : Thread nD τ).loc main_arg1)) b n :=
    Finset.sum_congr rfl fun k _ => by rw [KHost.V_v1_apply]
  rw [hsq]
  unfold rowVal Cert.Moe.Gat
  refine congrArg₂ (· + ·) (Finset.sum_congr rfl fun c' _ => ?_) ?_
  · beta_reduce
    rw [KHost.V_v0_apply, KHost.V_v4_apply]
  · beta_reduce
    rw [V_main_arg3]

/-! ## The run, read -/

/-- From any memory with zero counters, every weakly fair execution of the program terminates with the result array at
    the common specification of the four launched arrays, and those arrays unchanged. -/
theorem run : θ_run defs (onTc (τ := τ) (main (F := Ideal))) ⟨m, fun _ => 0, ρ⟩ fun r => ∀ c : Dev nD,
      r.2.mem ((c.tc : Thread nD τ).loc main_v6)
        = Cert.Moe.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).1 3).trans (((dats m 0 c).arrAt_in 3 rfl _).trans ((A_eq m c 3).trans (V_main_arg3 m c)))⟩)
    (run_main m ρ)

end Cert.KernelIdeal.KFinal

end
-- ==== Proof.lean ====
/-
  The certificate of one routed grouped-linear kernel against its dense reference.

  Every point of a cloud of 16 × 4096 points carries 256 features and three coordinates.  The point is routed to
  one of four filters by its radius: the first of the radii 1, 3/2, 2, 100 strictly above it, and filter 0 when there
  is none.  Its result, for each of 512 output channels, is the routed filter's weight row for the channel dotted with
  the point's features, plus the routed filter's bias for the channel (`Cert.Moe.G`, Proof/Spec.lean).

  The reference computes every point's radius with a square root, the first radius above it by an arg-max over the
  four comparisons, all four filters' affine maps densely, and then selects the routed one per point.  The kernel
  walks the points in 32 blocks of 2048: it compares the SQUARED radius with the squared radii 1, 9/4, 4, 10000 — the
  same comparisons, because a sum of squares is never negative and the square root is monotone there, at infinity
  too —, turns the outcome into four 0-or-1 row weights of which exactly one is 1, multiplies a copy of the features
  by each weight, and takes ONE product of the four weighted copies laid side by side with the four filters' weights
  stacked; the weighted bias rows are added.  Three of the four blocks of that product, and three of the four bias
  terms, are multiplied by zero, and what is left is the routed filter's affine map.  Both programs therefore end
  at `Cert.Moe.G` of the same arguments, over all extended reals: no finiteness of the inputs is used.

  Proof/Claims.lean assembles the five claims from the two programs' runs with their results named:
  Proof/KFinal.lean (the kernel's) and Proof/RefRun.lean with Proof/RefRoute.lean and Proof/RefDense.lean (the
  reference's).  The idealization rewrote nothing, so its claim is trivial.
-/
import proofs.«166644_j472446403136_2_alg».proof.Defs
import proofs.«166644_j472446403136_2_alg».proof.Proof.Claims
import proofs.«166644_j472446403136_2_alg».proof.Proof.KFinal

noncomputable section

namespace Cert.Proof

theorem claim : Cert.Claim := Cert.Proof.Claims.claim_of (fun m ρ => Cert.KernelIdeal.KFinal.run m ρ)

end Cert.Proof

end
